-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S_ : Shape := ⟨0, ![]⟩

class Facts : Prop where
  bcast_S_S50000x29x128 : S_.BroadcastsInDim S50000x29x128 (![] : Fin 0 → Fin S50000x29x128.rank)
  reducesTo_S50000x29x128_S_d0_1_2 : S50000x29x128.ReducesTo [0, 1, 2] S_
  h_S_ : 0 < S_.numel
  bcast_S_S896x896 : S_.BroadcastsInDim S896x896 (![] : Fin 0 → Fin S896x896.rank)
  reducesTo_S896x896_S_d0_1 : S896x896.ReducesTo [0, 1] S_
  bcast_S_S896 : S_.BroadcastsInDim S896 (![] : Fin 0 → Fin S896.rank)
  reducesTo_S896_S_d0 : S896.ReducesTo [0] S_
  bcast_S_S1536x768 : S_.BroadcastsInDim S1536x768 (![] : Fin 0 → Fin S1536x768.rank)
  reducesTo_S1536x768_S_d0_1 : S1536x768.ReducesTo [0, 1] S_
  bcast_S_S1280x640 : S_.BroadcastsInDim S1280x640 (![] : Fin 0 → Fin S1280x640.rank)
  reducesTo_S1280x640_S_d0_1 : S1280x640.ReducesTo [0, 1] S_

variable [Facts]

def fn_part1 {F : FTy → Type} [FloatOps F] (main_arg4 : FVec F S1280x640 .f32) (main_v13 : IVec S_ 1) (main_v16 : IVec S1536x768 1) : IVec S_ 1 :=
  let main_c_5 : IVec S_ 1 := constantI S_ 1 1#1
  let main_v17 : IVec S_ 1 := (fun x v => Host.reduce IntOp.andi x v reducesTo_S1536x768_S_d0_1 h_S_) main_v16 main_c_5
  let main_v18 : IVec S_ 1 := andi main_v13 main_v17
  let main_v19 : FVec F S1280x640 .f32 := Host.absf main_arg4
  let main_cst_6 : FVec F S_ .f32 := constant S_ .f32 0x7F800000#32
  let main_v20 : FVec F S1280x640 .f32 := broadcastInDim S1280x640 ![] bcast_S_S1280x640 main_cst_6
  let main_v21 : IVec S1280x640 1 := cmpf .olt main_v19 main_v20
  let main_c_7 : IVec S_ 1 := constantI S_ 1 1#1
  let main_v22 : IVec S_ 1 := (fun x v => Host.reduce IntOp.andi x v reducesTo_S1280x640_S_d0_1 h_S_) main_v21 main_c_7
  let main_v23 : IVec S_ 1 := andi main_v18 main_v22
  main_v23

def fn {F : FTy → Type} [FloatOps F] (main_arg0 : FVec F S50000x29x128 .f32) (main_arg1 : FVec F S896x896 .f32) (main_arg2 : FVec F S896 .f32) (main_arg3 : FVec F S1536x768 .f32) (main_arg4 : FVec F S1280x640 .f32) : IVec S_ 1 :=
  let main_v0 : FVec F S50000x29x128 .f32 := Host.absf main_arg0
  let main_cst : FVec F S_ .f32 := constant S_ .f32 0x7F800000#32
  let main_v1 : FVec F S50000x29x128 .f32 := broadcastInDim S50000x29x128 ![] bcast_S_S50000x29x128 main_cst
  let main_v2 : IVec S50000x29x128 1 := cmpf .olt main_v0 main_v1
  let main_c : IVec S_ 1 := constantI S_ 1 1#1
  let main_v3 : IVec S_ 1 := (fun x v => Host.reduce IntOp.andi x v reducesTo_S50000x29x128_S_d0_1_2 h_S_) main_v2 main_c
  let main_v4 : FVec F S896x896 .f32 := Host.absf main_arg1
  let main_cst_0 : FVec F S_ .f32 := constant S_ .f32 0x7F800000#32
  let main_v5 : FVec F S896x896 .f32 := broadcastInDim S896x896 ![] bcast_S_S896x896 main_cst_0
  let main_v6 : IVec S896x896 1 := cmpf .olt main_v4 main_v5
  let main_c_1 : IVec S_ 1 := constantI S_ 1 1#1
  let main_v7 : IVec S_ 1 := (fun x v => Host.reduce IntOp.andi x v reducesTo_S896x896_S_d0_1 h_S_) main_v6 main_c_1
  let main_v8 : IVec S_ 1 := andi main_v3 main_v7
  let main_v9 : FVec F S896 .f32 := Host.absf main_arg2
  let main_cst_2 : FVec F S_ .f32 := constant S_ .f32 0x7F800000#32
  let main_v10 : FVec F S896 .f32 := broadcastInDim S896 ![] bcast_S_S896 main_cst_2
  let main_v11 : IVec S896 1 := cmpf .olt main_v9 main_v10
  let main_c_3 : IVec S_ 1 := constantI S_ 1 1#1
  let main_v12 : IVec S_ 1 := (fun x v => Host.reduce IntOp.andi x v reducesTo_S896_S_d0 h_S_) main_v11 main_c_3
  let main_v13 : IVec S_ 1 := andi main_v8 main_v12
  let main_v14 : FVec F S1536x768 .f32 := Host.absf main_arg3
  let main_cst_4 : FVec F S_ .f32 := constant S_ .f32 0x7F800000#32
  let main_v15 : FVec F S1536x768 .f32 := broadcastInDim S1536x768 ![] bcast_S_S1536x768 main_cst_4
  let main_v16 : IVec S1536x768 1 := cmpf .olt main_v14 main_v15
  fn_part1 (F := F) main_arg4 main_v13 main_v16
-- ==== Kernel.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S50000x3712 : Shape := ⟨2, ![50000, 3712]⟩
abbrev S1x896 : Shape := ⟨2, ![1, 896]⟩
abbrev S768x1536 : Shape := ⟨2, ![768, 1536]⟩
abbrev S640x1280 : Shape := ⟨2, ![640, 1280]⟩
abbrev S512x3712 : Shape := ⟨2, ![512, 3712]⟩
abbrev S512x896 : Shape := ⟨2, ![512, 896]⟩
abbrev S512x768 : Shape := ⟨2, ![512, 768]⟩
abbrev S512x1536 : Shape := ⟨2, ![512, 1536]⟩
abbrev S512x640 : Shape := ⟨2, ![512, 640]⟩
abbrev S512x1280 : Shape := ⟨2, ![512, 1280]⟩

abbrev nBuf : Space → Nat
  | .hbm => 16
  | .vmem => 8
  | .smem => 0
  | _ => 0

abbrev bufTy : (tb : Table) → Fin (tcTables nBuf tb) → BufTy
  | .hbm, ⟨0, _⟩ => ⟨S50000x29x128, .f32⟩
  | .hbm, ⟨1, _⟩ => ⟨S896x896, .f32⟩
  | .hbm, ⟨2, _⟩ => ⟨S896, .f32⟩
  | .hbm, ⟨3, _⟩ => ⟨S1536x768, .f32⟩
  | .hbm, ⟨4, _⟩ => ⟨S1280x640, .f32⟩
  | .hbm, ⟨5, _⟩ => ⟨S50000x3712, .f32⟩
  | .hbm, ⟨6, _⟩ => ⟨S50000x3712, .bf16⟩
  | .hbm, ⟨7, _⟩ => ⟨S896x896, .f32⟩
  | .hbm, ⟨8, _⟩ => ⟨S896x896, .bf16⟩
  | .hbm, ⟨9, _⟩ => ⟨S1x896, .f32⟩
  | .hbm, ⟨10, _⟩ => ⟨S768x1536, .f32⟩
  | .hbm, ⟨11, _⟩ => ⟨S768x1536, .bf16⟩
  | .hbm, ⟨12, _⟩ => ⟨S640x1280, .f32⟩
  | .hbm, ⟨13, _⟩ => ⟨S640x1280, .bf16⟩
  | .hbm, ⟨14, _⟩ => ⟨S50000x3712, .f32⟩
  | .hbm, ⟨15, _⟩ => ⟨S50000x29x128, .f32⟩
  | .local _ .vmem, ⟨0, _⟩ => ⟨S512x3712, .bf16⟩
  | .local _ .vmem, ⟨1, _⟩ => ⟨S512x3712, .bf16⟩
  | .local _ .vmem, ⟨2, _⟩ => ⟨S896x896, .bf16⟩
  | .local _ .vmem, ⟨3, _⟩ => ⟨S1x896, .f32⟩
  | .local _ .vmem, ⟨4, _⟩ => ⟨S768x1536, .bf16⟩
  | .local _ .vmem, ⟨5, _⟩ => ⟨S640x1280, .bf16⟩
  | .local _ .vmem, ⟨6, _⟩ => ⟨S512x3712, .f32⟩
  | .local _ .vmem, ⟨7, _⟩ => ⟨S512x3712, .f32⟩
  | _, _ => ⟨S50000x29x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3712 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S50000x29x128_S50000x3712 : S50000x29x128.ShapeCasts S50000x3712
  bitsLt_bf16_f32 : FTy.bits .bf16 < FTy.bits .f32
  transposes_S896x896_S896x896_1_0 : S896x896.Transposes [1, 0] S896x896
  shapeCasts_S896_S1x896 : S896.ShapeCasts S1x896
  transposes_S1536x768_S768x1536_1_0 : S1536x768.Transposes [1, 0] S768x1536
  transposes_S1280x640_S640x1280_1_0 : S1280x640.Transposes [1, 0] S640x1280
  inb_S512x3712_S512x896_0_0 : ∀ a, (![0, 0] : Fin 2 → Nat) a + S512x896.size a ≤ S512x3712.size a
  h_S512x896 : 0 < S512x896.numel
  shapeCasts_S512x896_S512x896 : S512x896.ShapeCasts S512x896
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S512x896 : S1x896.Broadcasts S512x896
  inb_S512x3712_S512x768_0_896 : ∀ a, (![0, 896] : Fin 2 → Nat) a + S512x768.size a ≤ S512x3712.size a
  h_S512x768 : 0 < S512x768.numel
  shapeCasts_S512x768_S512x768 : S512x768.ShapeCasts S512x768
  inb_S512x3712_S512x768_0_1664 : ∀ a, (![0, 1664] : Fin 2 → Nat) a + S512x768.size a ≤ S512x3712.size a
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  slices_S512x1536_o0_0_S512x768 : S512x1536.Slices ![0, 0] S512x768
  slices_S512x1536_o0_768_S512x768 : S512x1536.Slices ![0, 768] S512x768
  inb_S512x3712_S512x640_0_2432 : ∀ a, (![0, 2432] : Fin 2 → Nat) a + S512x640.size a ≤ S512x3712.size a
  h_S512x640 : 0 < S512x640.numel
  shapeCasts_S512x640_S512x640 : S512x640.ShapeCasts S512x640
  inb_S512x3712_S512x640_0_3072 : ∀ a, (![0, 3072] : Fin 2 → Nat) a + S512x640.size a ≤ S512x3712.size a
  inb_S640x1280_S640x1280_0_0 : ∀ a, (![0, 0] : Fin 2 → Nat) a + S640x1280.size a ≤ S640x1280.size a
  h_S640x1280 : 0 < S640x1280.numel
  shapeCasts_S640x1280_S640x1280 : S640x1280.ShapeCasts S640x1280
  slices_S512x1280_o0_0_S512x640 : S512x1280.Slices ![0, 0] S512x640
  slices_S512x1280_o0_640_S512x640 : S512x1280.Slices ![0, 640] S512x640
  shapeCasts_S50000x3712_S50000x29x128 : S50000x3712.ShapeCasts S50000x29x128
  dot_S512x896_S896x896_S512x896_1_0_0_1_n_n_wf : DotDims.WF S512x896 S896x896 S512x896 [1] [0] [0] [1] [] []
  dot_S512x768_S768x1536_S512x1536_1_0_0_1_n_n_wf : DotDims.WF S512x768 S768x1536 S512x1536 [1] [0] [0] [1] [] []
  dot_S512x640_S640x1280_S512x1280_1_0_0_1_n_n_wf : DotDims.WF S512x640 S640x1280 S512x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x3712.size a < S50000x3712.size a
  hwx0_0 : ∀ i : grid0.Coords, EltTy.bits .bf16 = 32 ∨ (Rect.unit (s := S50000x3712) (fun a => cc0_transform_0 i a * S512x3712.size a) (fun a => (Pipeline.Clip.of (cc0_transform_0 i a) (S512x3712.size a) (S50000x3712.size a)).extent (S512x3712.size a)) fun a => Pipeline.Clip.inb (Pipeline.Clip.ok_of (hstart0_0 i a))).WholeWords (EltTy.packing .bf16)
  hwxs0_0 : ∀ i : grid0.Coords, EltTy.bits .bf16 = 32 ∨ (Rect.unit (s := S512x3712) (fun _ => 0) (fun a => (Pipeline.Clip.of (cc0_transform_0 i a) (S512x3712.size a) (S50000x3712.size a)).extent (S512x3712.size a)) fun a => (Nat.zero_add _).trans_le (Pipeline.Clip.extent_le (Pipeline.Clip.ok_of (hstart0_0 i a)))).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S896x896.size a ≤ S896x896.size a
  hwx0_1 : ∀ i : grid0.Coords, EltTy.bits .bf16 = 32 ∨ (Rect.block (s := S896x896) S896x896.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x896.size a ≤ S1x896.size a
  hwx0_2 : ∀ i : grid0.Coords, EltTy.bits .f32 = 32 ∨ (Rect.block (s := S1x896) S1x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1536.size a ≤ S768x1536.size a
  hwx0_3 : ∀ i : grid0.Coords, EltTy.bits .bf16 = 32 ∨ (Rect.block (s := S768x1536) S768x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x1280.size a ≤ S640x1280.size a
  hwx0_4 : ∀ i : grid0.Coords, EltTy.bits .bf16 = 32 ∨ (Rect.block (s := S640x1280) S640x1280.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x3712.size a < S50000x3712.size a
  hwx0_5 : ∀ i : grid0.Coords, EltTy.bits .f32 = 32 ∨ (Rect.unit (s := S50000x3712) (fun a => cc0_transform_5 i a * S512x3712.size a) (fun a => (Pipeline.Clip.of (cc0_transform_5 i a) (S512x3712.size a) (S50000x3712.size a)).extent (S512x3712.size a)) fun a => Pipeline.Clip.inb (Pipeline.Clip.ok_of (hstart0_5 i a))).WholeWords (EltTy.packing .f32)
  hwxs0_5 : ∀ i : grid0.Coords, EltTy.bits .f32 = 32 ∨ (Rect.unit (s := S512x3712) (fun _ => 0) (fun a => (Pipeline.Clip.of (cc0_transform_5 i a) (S512x3712.size a) (S50000x3712.size a)).extent (S512x3712.size a)) fun a => (Nat.zero_add _).trans_le (Pipeline.Clip.extent_le (Pipeline.Clip.ok_of (hstart0_5 i a)))).WholeWords (EltTy.packing .f32)

variable [Facts₀]

def dot_S512x896_S896x896_S512x896_1_0_0_1_n_n : DotDims S512x896 S896x896 S512x896 where
  lhsContracting := [1]
  rhsContracting := [0]
  lhsNonContracting := [0]
  rhsNonContracting := [1]
  lhsBatch := []
  rhsBatch := []
  wf := dot_S512x896_S896x896_S512x896_1_0_0_1_n_n_wf
def dot_S512x768_S768x1536_S512x1536_1_0_0_1_n_n : DotDims S512x768 S768x1536 S512x1536 where
  lhsContracting := [1]
  rhsContracting := [0]
  lhsNonContracting := [0]
  rhsNonContracting := [1]
  lhsBatch := []
  rhsBatch := []
  wf := dot_S512x768_S768x1536_S512x1536_1_0_0_1_n_n_wf
def dot_S512x640_S640x1280_S512x1280_1_0_0_1_n_n : DotDims S512x640 S640x1280 S512x1280 where
  lhsContracting := [1]
  rhsContracting := [0]
  lhsNonContracting := [0]
  rhsNonContracting := [1]
  lhsBatch := []
  rhsBatch := []
  wf := dot_S512x640_S640x1280_S512x1280_1_0_0_1_n_n_wf

abbrev win0_0 : Pipeline.Window sig grid0 :=
  Pipeline.Window.ofSpecClip (Memref.whole main_v1) S512x3712.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S896x896.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S768x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S640x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v9) S512x3712.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x29x128 : Shape := ⟨3, ![50000, 29, 128]⟩
abbrev S896x896 : Shape := ⟨2, ![896, 896]⟩
abbrev S896 : Shape := ⟨1, ![896]⟩
abbrev S1536x768 : Shape := ⟨2, ![1536, 768]⟩
abbrev S1280x640 : Shape := ⟨2, ![1280, 640]⟩
abbrev S50000x7x128 : Shape := ⟨3, ![50000, 7, 128]⟩
abbrev S50000x896 : Shape := ⟨2, ![50000, 896]⟩
abbrev S1x896 : Shape := ⟨2, ![1, 896]⟩
abbrev S50000x12x128 : Shape := ⟨3, ![50000, 12, 128]⟩
abbrev S50000x2x768 : Shape := ⟨3, ![50000, 2, 768]⟩
abbrev S50000x2x1536 : Shape := ⟨3, ![50000, 2, 1536]⟩
abbrev S50000x1x768 : Shape := ⟨3, ![50000, 1, 768]⟩
abbrev S50000x768 : Shape := ⟨2, ![50000, 768]⟩
abbrev S50000x6x128 : Shape := ⟨3, ![50000, 6, 128]⟩
abbrev S50000x10x128 : Shape := ⟨3, ![50000, 10, 128]⟩
abbrev S50000x2x640 : Shape := ⟨3, ![50000, 2, 640]⟩
abbrev S50000x2x1280 : Shape := ⟨3, ![50000, 2, 1280]⟩
abbrev S50000x1x640 : Shape := ⟨3, ![50000, 1, 640]⟩
abbrev S50000x640 : Shape := ⟨2, ![50000, 640]⟩
abbrev S50000x5x128 : Shape := ⟨3, ![50000, 5, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x29x128, .f32⟩
  | .hbm, ⟨1, _⟩ => ⟨S896x896, .f32⟩
  | .hbm, ⟨2, _⟩ => ⟨S896, .f32⟩
  | .hbm, ⟨3, _⟩ => ⟨S1536x768, .f32⟩
  | .hbm, ⟨4, _⟩ => ⟨S1280x640, .f32⟩
  | .hbm, ⟨5, _⟩ => ⟨S50000x7x128, .f32⟩
  | .hbm, ⟨6, _⟩ => ⟨S50000x896, .f32⟩
  | .hbm, ⟨7, _⟩ => ⟨S896x896, .f32⟩
  | .hbm, ⟨8, _⟩ => ⟨S50000x896, .f32⟩
  | .hbm, ⟨9, _⟩ => ⟨S1x896, .f32⟩
  | .hbm, ⟨10, _⟩ => ⟨S50000x896, .f32⟩
  | .hbm, ⟨11, _⟩ => ⟨S50000x896, .f32⟩
  | .hbm, ⟨12, _⟩ => ⟨S50000x7x128, .f32⟩
  | .hbm, ⟨13, _⟩ => ⟨S50000x12x128, .f32⟩
  | .hbm, ⟨14, _⟩ => ⟨S50000x2x768, .f32⟩
  | .hbm, ⟨15, _⟩ => ⟨S50000x2x1536, .f32⟩
  | .hbm, ⟨16, _⟩ => ⟨S50000x2x768, .f32⟩
  | .hbm, ⟨17, _⟩ => ⟨S50000x2x768, .f32⟩
  | .hbm, ⟨18, _⟩ => ⟨S50000x1x768, .f32⟩
  | .hbm, ⟨19, _⟩ => ⟨S50000x768, .f32⟩
  | .hbm, ⟨20, _⟩ => ⟨S50000x1x768, .f32⟩
  | .hbm, ⟨21, _⟩ => ⟨S50000x768, .f32⟩
  | .hbm, ⟨22, _⟩ => ⟨S50000x768, .f32⟩
  | .hbm, ⟨23, _⟩ => ⟨S50000x1x768, .f32⟩
  | .hbm, ⟨24, _⟩ => ⟨S50000x768, .f32⟩
  | .hbm, ⟨25, _⟩ => ⟨S50000x1x768, .f32⟩
  | .hbm, ⟨26, _⟩ => ⟨S50000x768, .f32⟩
  | .hbm, ⟨27, _⟩ => ⟨S50000x768, .f32⟩
  | .hbm, ⟨28, _⟩ => ⟨S50000x6x128, .f32⟩
  | .hbm, ⟨29, _⟩ => ⟨S50000x6x128, .f32⟩
  | .hbm, ⟨30, _⟩ => ⟨S50000x10x128, .f32⟩
  | .hbm, ⟨31, _⟩ => ⟨S50000x2x640, .f32⟩
  | .hbm, ⟨32, _⟩ => ⟨S50000x2x1280, .f32⟩
  | .hbm, ⟨33, _⟩ => ⟨S50000x2x640, .f32⟩
  | .hbm, ⟨34, _⟩ => ⟨S50000x2x640, .f32⟩
  | .hbm, ⟨35, _⟩ => ⟨S50000x1x640, .f32⟩
  | .hbm, ⟨36, _⟩ => ⟨S50000x640, .f32⟩
  | .hbm, ⟨37, _⟩ => ⟨S50000x1x640, .f32⟩
  | .hbm, ⟨38, _⟩ => ⟨S50000x640, .f32⟩
  | .hbm, ⟨39, _⟩ => ⟨S50000x640, .f32⟩
  | .hbm, ⟨40, _⟩ => ⟨S50000x1x640, .f32⟩
  | .hbm, ⟨41, _⟩ => ⟨S50000x640, .f32⟩
  | .hbm, ⟨42, _⟩ => ⟨S50000x1x640, .f32⟩
  | .hbm, ⟨43, _⟩ => ⟨S50000x640, .f32⟩
  | .hbm, ⟨44, _⟩ => ⟨S50000x640, .f32⟩
  | .hbm, ⟨45, _⟩ => ⟨S50000x5x128, .f32⟩
  | .hbm, ⟨46, _⟩ => ⟨S50000x5x128, .f32⟩
  | .hbm, ⟨47, _⟩ => ⟨S50000x29x128, .f32⟩
  | _, _ => ⟨S50000x29x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩

abbrev nD : Nat := 1
abbrev τ : Topo := Topo.v7x

variable {F : FTy → Type} [FloatOps F]

class Facts₀ : Prop where
  slices_S50000x29x128_S50000x7x128_0_0_0 : S50000x29x128.Slices ![0, 0, 0] S50000x7x128
  shapeCasts_S50000x7x128_S50000x896 : S50000x7x128.ShapeCasts S50000x896
  transposes_S896x896_S896x896_1_0 : S896x896.Transposes [1, 0] S896x896
  bcast_S896_S1x896_1 : S896.BroadcastsInDim S1x896 (![1] : Fin 1 → Fin S1x896.rank)
  bcast_S1x896_S50000x896_0_1 : S1x896.BroadcastsInDim S50000x896 (![0, 1] : Fin 2 → Fin S50000x896.rank)
  shapeCasts_S50000x896_S50000x7x128 : S50000x896.ShapeCasts S50000x7x128
  slices_S50000x29x128_S50000x12x128_0_7_0 : S50000x29x128.Slices ![0, 7, 0] S50000x12x128
  shapeCasts_S50000x12x128_S50000x2x768 : S50000x12x128.ShapeCasts S50000x2x768
  slices_S50000x2x1536_S50000x2x768_0_0_0 : S50000x2x1536.Slices ![0, 0, 0] S50000x2x768
  slices_S50000x2x1536_S50000x2x768_0_0_768 : S50000x2x1536.Slices ![0, 0, 768] S50000x2x768
  slices_S50000x2x768_S50000x1x768_0_0_0 : S50000x2x768.Slices ![0, 0, 0] S50000x1x768
  shapeCasts_S50000x1x768_S50000x768 : S50000x1x768.ShapeCasts S50000x768
  slices_S50000x2x768_S50000x1x768_0_1_0 : S50000x2x768.Slices ![0, 1, 0] S50000x1x768
  shapeCasts_S50000x768_S50000x6x128 : S50000x768.ShapeCasts S50000x6x128
  slices_S50000x29x128_S50000x10x128_0_19_0 : S50000x29x128.Slices ![0, 19, 0] S50000x10x128
  shapeCasts_S50000x10x128_S50000x2x640 : S50000x10x128.ShapeCasts S50000x2x640
  slices_S50000x2x1280_S50000x2x640_0_0_0 : S50000x2x1280.Slices ![0, 0, 0] S50000x2x640
  slices_S50000x2x1280_S50000x2x640_0_0_640 : S50000x2x1280.Slices ![0, 0, 640] S50000x2x640
  slices_S50000x2x640_S50000x1x640_0_0_0 : S50000x2x640.Slices ![0, 0, 0] S50000x1x640
  shapeCasts_S50000x1x640_S50000x640 : S50000x1x640.ShapeCasts S50000x640
  slices_S50000x2x640_S50000x1x640_0_1_0 : S50000x2x640.Slices ![0, 1, 0] S50000x1x640
  shapeCasts_S50000x640_S50000x5x128 : S50000x640.ShapeCasts S50000x5x128
  concatenates_S50000x7x128_S50000x6x128_S50000x6x128_S50000x5x128_S50000x5x128_S50000x29x128_d1 : Shape.Concatenates [S50000x7x128, S50000x6x128, S50000x6x128, S50000x5x128, S50000x5x128] S50000x29x128 1
  dot_S50000x896_S896x896_S50000x896_1_0_0_1_n_n_wf : DotDims.WF S50000x896 S896x896 S50000x896 [1] [0] [0] [1] [] []
  dot_S50000x2x768_S1536x768_S50000x2x1536_2_1_01_0_n_n_wf : DotDims.WF S50000x2x768 S1536x768 S50000x2x1536 [2] [1] [0, 1] [0] [] []
  dot_S50000x2x640_S1280x640_S50000x2x1280_2_1_01_0_n_n_wf : DotDims.WF S50000x2x640 S1280x640 S50000x2x1280 [2] [1] [0, 1] [0] [] []

variable [Facts₀]

def dot_S50000x896_S896x896_S50000x896_1_0_0_1_n_n : DotDims S50000x896 S896x896 S50000x896 where
  lhsContracting := [1]
  rhsContracting := [0]
  lhsNonContracting := [0]
  rhsNonContracting := [1]
  lhsBatch := []
  rhsBatch := []
  wf := dot_S50000x896_S896x896_S50000x896_1_0_0_1_n_n_wf
def dot_S50000x2x768_S1536x768_S50000x2x1536_2_1_01_0_n_n : DotDims S50000x2x768 S1536x768 S50000x2x1536 where
  lhsContracting := [2]
  rhsContracting := [1]
  lhsNonContracting := [0, 1]
  rhsNonContracting := [0]
  lhsBatch := []
  rhsBatch := []
  wf := dot_S50000x2x768_S1536x768_S50000x2x1536_2_1_01_0_n_n_wf
def dot_S50000x2x640_S1280x640_S50000x2x1280_2_1_01_0_n_n : DotDims S50000x2x640 S1280x640 S50000x2x1280 where
  lhsContracting := [2]
  rhsContracting := [1]
  lhsNonContracting := [0, 1]
  rhsNonContracting := [0]
  lhsBatch := []
  rhsBatch := []
  wf := dot_S50000x2x640_S1280x640_S50000x2x1280_2_1_01_0_n_n_wf

class Facts : Prop extends Facts₀ where

variable [Facts]
-- ==== Proof.WordBody.lean ====
/-
  The kernel body of `Cert.Kernel`, at any float instance: one point of the grid works on a 512-row block of the
  flattened edge features `x` (512 × 3712, the 29 × 128 components of an edge laid side by side) and on the three
  weight matrices and the bias, whole. It stores the output block in five column ranges that tile its 3712 columns:

    columns    0 ‥  895   x[:, 0:896] · W0ᵀ + b0                                            (m = 0)
    columns  896 ‥ 1663   (x[:, 896:1664] · W1ᵀ)[:, :768]  −  (x[:, 1664:2432] · W1ᵀ)[:, 768:]   (m = 1, "pos")
    columns 1664 ‥ 2431   (x[:, 1664:2432] · W1ᵀ)[:, :768]  +  (x[:, 896:1664] · W1ᵀ)[:, 768:]   (m = 1, "neg")
    columns 2432 ‥ 3071   the same two combinations for m = 2 over x[:, 2432:3072], x[:, 3072:3712] and W2ᵀ
    columns 3072 ‥ 3711

  `outBlock` is what the output's staging buffer holds after the body as one function of the five input buffers (the
  five stores as pieces, the last store first); `covered` says every column lies in one of the five ranges; and
  `sound_kernel` is the body's triple: the inputs' buffers are left as they were, the output's buffer — whatever it
  held — ends at `outBlock` of them.
-/
import proofs.«134654_j42305427866205_2_alg».proof.Proof.Gen.Kernel.Frame
import proofs.«134654_j42305427866205_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The five column ranges of a 512 × 3712 block, and the whole weight and bias buffers -/

abbrev colsM0 : Rect S512x3712 := Rect.unit (s := S512x3712) ![0, 0] S512x896.size inb_S512x3712_S512x896_0_0
abbrev colsM1re : Rect S512x3712 := Rect.unit (s := S512x3712) ![0, 896] S512x768.size inb_S512x3712_S512x768_0_896
abbrev colsM1im : Rect S512x3712 := Rect.unit (s := S512x3712) ![0, 1664] S512x768.size inb_S512x3712_S512x768_0_1664
abbrev colsM2re : Rect S512x3712 := Rect.unit (s := S512x3712) ![0, 2432] S512x640.size inb_S512x3712_S512x640_0_2432
abbrev colsM2im : Rect S512x3712 := Rect.unit (s := S512x3712) ![0, 3072] S512x640.size inb_S512x3712_S512x640_0_3072
abbrev allW0 : Rect S896x896 := Rect.unit (s := S896x896) ![0, 0] S896x896.size inb_S896x896_S896x896_0_0
abbrev allB0 : Rect S1x896 := Rect.unit (s := S1x896) ![0, 0] S1x896.size inb_S1x896_S1x896_0_0
abbrev allW1 : Rect S768x1536 := Rect.unit (s := S768x1536) ![0, 0] S768x1536.size inb_S768x1536_S768x1536_0_0
abbrev allW2 : Rect S640x1280 := Rect.unit (s := S640x1280) ![0, 0] S640x1280.size inb_S640x1280_S640x1280_0_0

/-! ## What the body leaves in the output's buffer -/

/-- The output block after the body, from the five input buffers: the five stores as pieces, the last store first. -/
def outBlock (x : Vec F S512x3712 .bf16) (w0 : Vec F S896x896 .bf16) (b0 : Vec F S1x896 .f32)
    (w1 : Vec F S768x1536 .bf16) (w2 : Vec F S640x1280 .bf16) : Vec F S512x3712 .f32 :=
  View.canon [⟨colsM2im, k0_pay4 (k0_pay10 (View.ld x colsM2re)) (View.ld x colsM2im) (View.ld w2 allW2) (View.ld w2 allW2)⟩,
    ⟨colsM2re, k0_pay3 (k0_pay10 (View.ld x colsM2re)) (View.ld x colsM2im) (View.ld w2 allW2) (View.ld w2 allW2)⟩,
    ⟨colsM1im, k0_pay9 (View.ld x colsM1re) (View.ld x colsM1im) (View.ld w1 allW1) (View.ld w1 allW1)⟩,
    ⟨colsM1re, k0_pay8 (View.ld x colsM1re) (View.ld x colsM1im) (View.ld w1 allW1) (View.ld w1 allW1)⟩,
    ⟨colsM0, k0_pay5 (View.ld x colsM0) (View.ld w0 allW0) (View.ld b0 allB0)⟩]

/-- Every element of the block lies in one of the five column ranges: 896 + 768 + 768 + 640 + 640 = 3712, and each
    range spans all 512 rows. -/
theorem covered (p4 p3 : Vec F S512x640 .f32) (p9 p8 : Vec F S512x768 .f32) (p5 : Vec F S512x896 .f32) (y : S512x3712.Idx) :
    ∃ pc ∈ ([⟨colsM2im, p4⟩, ⟨colsM2re, p3⟩, ⟨colsM1im, p9⟩, ⟨colsM1re, p8⟩, ⟨colsM0, p5⟩] : List (View.Piece (Elt F) S512x3712 .f32)),
      y ∈ pc.1.set := by
  have h0 : (y 0 : Nat) < 512 := (y 0).isLt
  have h1 : (y 1 : Nat) < 3712 := (y 1).isLt
  have two : ∀ (o n : Nat) (r : Rect S512x3712), (∀ a, r.off a = (![0, o] : Fin 2 → Nat) a) → True := fun _ _ _ _ => trivial
  by_cases c0 : (y 1 : Nat) < 896
  · refine ⟨⟨colsM0, p5⟩, by simp, ?_⟩
    rw [Rect.mem_set_unit]; intro a
    match a with
    | ⟨0, _⟩ => exact ⟨Nat.zero_le _, by show (y 0 : Nat) < 0 + 512; omega⟩
    | ⟨1, _⟩ => exact ⟨Nat.zero_le _, by show (y 1 : Nat) < 0 + 896; omega⟩
  by_cases c1 : (y 1 : Nat) < 1664
  · refine ⟨⟨colsM1re, p8⟩, by simp, ?_⟩
    rw [Rect.mem_set_unit]; intro a
    match a with
    | ⟨0, _⟩ => exact ⟨Nat.zero_le _, by show (y 0 : Nat) < 0 + 512; omega⟩
    | ⟨1, _⟩ => exact ⟨by show 896 ≤ (y 1 : Nat); omega, by show (y 1 : Nat) < 896 + 768; omega⟩
  by_cases c2 : (y 1 : Nat) < 2432
  · refine ⟨⟨colsM1im, p9⟩, by simp, ?_⟩
    rw [Rect.mem_set_unit]; intro a
    match a with
    | ⟨0, _⟩ => exact ⟨Nat.zero_le _, by show (y 0 : Nat) < 0 + 512; omega⟩
    | ⟨1, _⟩ => exact ⟨by show 1664 ≤ (y 1 : Nat); omega, by show (y 1 : Nat) < 1664 + 768; omega⟩
  by_cases c3 : (y 1 : Nat) < 3072
  · refine ⟨⟨colsM2re, p3⟩, by simp, ?_⟩
    rw [Rect.mem_set_unit]; intro a
    match a with
    | ⟨0, _⟩ => exact ⟨Nat.zero_le _, by show (y 0 : Nat) < 0 + 512; omega⟩
    | ⟨1, _⟩ => exact ⟨by show 2432 ≤ (y 1 : Nat); omega, by show (y 1 : Nat) < 2432 + 640; omega⟩
  · refine ⟨⟨colsM2im, p4⟩, by simp, ?_⟩
    rw [Rect.mem_set_unit]; intro a
    match a with
    | ⟨0, _⟩ => exact ⟨Nat.zero_le _, by show (y 0 : Nat) < 0 + 512; omega⟩
    | ⟨1, _⟩ => exact ⟨by show 3072 ≤ (y 1 : Nat); omega, by show (y 1 : Nat) < 3072 + 640; omega⟩

/-! ## The body's triple -/

set_option maxHeartbeats 4000000 in
/-- The body on whole staging buffers — the inputs' at contents `x`, `w0`, `b0`, `w1`, `w2`, the output's at anything —
    runs to the continuation holding the inputs' as they were and the output's at `outBlock` of them. The loads of the
    output's buffer that precede each store read values nothing uses. -/
theorem sound_kernel (c : Dev nD) (E : Set ℕ) (i : grid0.Coords)
    (arg1 : Memref sig .tc .vmem S512x3712 .bf16) (harg1 : arg1.IsWhole) (arg2 : Memref sig .tc .vmem S896x896 .bf16) (harg2 : arg2.IsWhole)
    (arg3 : Memref sig .tc .vmem S1x896 .f32) (harg3 : arg3.IsWhole) (arg4 : Memref sig .tc .vmem S768x1536 .bf16) (harg4 : arg4.IsWhole)
    (arg5 : Memref sig .tc .vmem S640x1280 .bf16) (harg5 : arg5.IsWhole) (arg6 : Memref sig .tc .vmem S512x3712 .f32) (harg6 : arg6.IsWhole)
    (x : Vec F S512x3712 .bf16) (w0 : Vec F S896x896 .bf16) (b0 : Vec F S1x896 .f32) (w1 : Vec F S768x1536 .bf16) (w2 : Vec F S640x1280 .bf16)
    (K : PUnit → sProp 𝕄) :
    iprop(owns (c : Thread nD τ) arg1 fullShare x ∗ owns (c : Thread nD τ) arg2 fullShare w0 ∗ owns (c : Thread nD τ) arg3 fullShare b0
        ∗ owns (c : Thread nD τ) arg4 fullShare w1 ∗ owns (c : Thread nD τ) arg5 fullShare w2 ∗ (∃ d, owns (c : Thread nD τ) arg6 fullShare d)
        ∗ (iprop(owns (c : Thread nD τ) arg1 fullShare x ∗ owns (c : Thread nD τ) arg2 fullShare w0 ∗ owns (c : Thread nD τ) arg3 fullShare b0
            ∗ owns (c : Thread nD τ) arg4 fullShare w1 ∗ owns (c : Thread nD τ) arg5 fullShare w2
            ∗ owns (c : Thread nD τ) arg6 fullShare (outBlock x w0 b0 w1 w2)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (covered _ _ _ _ _)

end Cert.Kernel.Hand

end
-- ==== Proof.WordFrame.lean ====
/-
  The frame of the word-level program: it runs (terminates, no fault) and leaves its five argument arrays as they were.

  The program is nine host lines (reshapes, transposes, roundings to bf16), one pipeline over a grid of 98 points, and one
  host line (the reshape of the pipeline's result). The pipeline's six windows are over the host lines' results — the
  rounded features, the rounded transposed weights, the reshaped bias, and the result array — and never over an argument
  array; the host lines write their own result buffers only. So the claim reads nothing the kernel computes, and the
  result window is FORGOTTEN: its staging buffer is handed to the body at contents nothing names and taken back at contents
  nothing names, and nothing is said of the result array at the end. That is harmless for a frame: the claim speaks of
  the argument arrays, which no window of the pipeline writes and no host line writes. It also spares saying anything of the
  last block: point 97's block overhangs the features array (98 · 512 = 50176 > 50000), its fetch fills the first 336 rows
  of the buffer and leaves the others at words nothing names, so the last rows of that point's result block are a function
  of words nothing names. The features' window is stated on the rows its transfers move: the body finds the buffer at its
  block filled out with anything and leaves it so. The weights and the bias are fetched once, whole, and stay in their buffers.
-/
import proofs.«134654_j42305427866205_2_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window the claim does not read: the result's (window 5). -/
def forgetsOut : Fin 6 → Bool := fun w => w.val == 5

/-- The features' block at point `t` (its rows inside the array) filled out to 512 rows with anything. -/
def xFull (c : Dev nD) (t : Fin cfg0.N) : S512x3712.Idx → Elt F .bf16 :=
  win0_0.fill (grid0.coords t) (Pipeline.Dat.unnamed (cfg := cfg0) 0 t) (iblk m c 0 t)

/-- The proof data of the pipeline on core `c`: the arrays as the region finds them; after the body at point `t` the
    features' buffer at its block filled out, the weights' and the bias's buffers at their (whole) blocks, the result's
    buffer, forgotten, at contents nothing names; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xFull m c t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xFull m c t := by dsimp only [dats]
theorem after_w0 (c : Dev nD) (t : Fin cfg0.N) : (dats m 0 c).after 1 t = iblk m c 1 t := by dsimp only [dats]
theorem after_b0 (c : Dev nD) (t : Fin cfg0.N) : (dats m 0 c).after 2 t = iblk m c 2 t := by dsimp only [dats]
theorem after_w1 (c : Dev nD) (t : Fin cfg0.N) : (dats m 0 c).after 3 t = iblk m c 3 t := by dsimp only [dats]
theorem after_w2 (c : Dev nD) (t : Fin cfg0.N) : (dats m 0 c).after 4 t = iblk m c 4 t := by dsimp only [dats]

/-! ## What the body finds -/

/-- The features' window is fetched at every point: its buffer holds the block on the rows the fetch fills, `d` below them. -/
theorem before_x (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-- The weights' and the bias's buffers hold their blocks at every point, fetched there or not. -/
theorem before_w0 (c : Dev nD) (t : Fin cfg0.N) (d) : (dats m 0 c).before 1 t d = iblk m c 1 t :=
  before0_1_of m (dats m 0 c) (A_eq m c 1) (after_w0 m c) t d
theorem before_b0 (c : Dev nD) (t : Fin cfg0.N) (d) : (dats m 0 c).before 2 t d = iblk m c 2 t :=
  before0_2_of m (dats m 0 c) (A_eq m c 2) (after_b0 m c) t d
theorem before_w1 (c : Dev nD) (t : Fin cfg0.N) (d) : (dats m 0 c).before 3 t d = iblk m c 3 t :=
  before0_3_of m (dats m 0 c) (A_eq m c 3) (after_w1 m c) t d
theorem before_w2 (c : Dev nD) (t : Fin cfg0.N) (d) : (dats m 0 c).before 4 t d = iblk m c 4 t :=
  before0_4_of m (dats m 0 c) (A_eq m c 4) (after_w2 m c) t d

/-! ## The body obligation -/

/-- What the body is called with at point `t`, window by window (the result's buffer at anything), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: the features' buffer stated on the rows its transfers move, the result's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w0, before_b0, before_w1, before_w2]
  rw [show (dats m 0 c).Φ t.succ = (dats m 0 c).Φ t.castSucc from rfl,
    show (dats m 0 c).owesAt () t.succ = (dats m 0 c).owesAt () t.castSucc from rfl,
    after_x, after_w0, after_b0, after_w1, after_w2]
  iintro ⟨HΦ, Ho, ⟨%d0, H0⟩, ⟨%d1, H1⟩, ⟨%d2, H2⟩, ⟨%d3, H3⟩, ⟨%d4, H4⟩, ⟨%d5, H5⟩⟩
  iapply (sound_kernel (F := F) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  -- the features' buffer still holds its block filled out with `d0`: on the moved rows the block, as `xFull` is
  have hx : win0_0.fill (grid0.coords t) d0 (win0_0.cut (grid0.coords t) (xFull m c t)) = win0_0.fill (grid0.coords t) d0 (iblk m c 0 t) := by
    unfold xFull; rw [win0_0.cut_fill]
  isplitl [H0]
  · iexists d0; rw [hx]; iexact H0
  isplitl [H1]; · iexact H1
  isplitl [H2]; · iexact H2
  isplitl [H3]; · iexact H3
  isplitl [H4]; · iexact H4
  iexists _; iexact H5

/-- The library's body obligation with the result's window forgotten, at every point. -/
theorem body_obligation (c : Dev nD) :
    BodyObligationLoose (dats m 0 c) (defs₀ (F := F)) Variants.none () Set.univ forgetsOut := fun t => by
  rw [bigSep_W0, bigSep_W0]
  exact sound_body m c t

/-! ## The run and the frame -/

/-- The one host line after the region writes the reshaped result only. -/
theorem tail_writes : ∀ ops ∈ ([hostOps1] : List (List (HloOp τ sig (Elt F)))), ∀ op ∈ ops, ∀ b : Ref sig .tc,
    Proc.devRef .tc b ∈ op.writes → b ∈ ({main_v10} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective (τ := τ) .tc hb)

set_option backward.isDefEq.respectTransparency.types false in
/-- Every weakly fair execution of the program terminates without a fault; at the end every input array of the pipeline
    is as the region found it, nothing is said of the result array or of its reshape, and every other unscoped buffer
    that is no window's array holds what it held when the region was entered. -/
theorem run_main : θ_run defs (onTc (τ := τ) (main (F := F))) (s₀ m ρ)
    (Pipeline.RDat.FramePostR (cfgs 0) (fun c => (dats m 0 c).toRForget forgetsOut) {main_v10} (V m)) :=
  Pipeline.RDat.θ_run_frame_around_T cfgs (0 : Fin 1) launch0 defs₀ Variants.none
    (fun c => (dats m 0 c).toRForget forgetsOut) {main_v10} m ρ main
    (hbody := fun c => (body_obligation m c).toRForget)
    (hshare := fun c => ((dats m 0 c).toRForget forgetsOut).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An argument array is unscoped, is no window's array, and is not the reshaped result. -/
theorem arg_rest (b : Ref sig .tc) (hs : b.isScoped = false) (ha : ∀ w, (spec0 w).arr.view.ref ≠ b) (hb : b ≠ main_v10) :
    b ∈ Pipeline.restRefs sig (cfgs 0).spec \ ({main_v10} : Finset (Ref sig .tc)) :=
  Finset.mem_sdiff.mpr ⟨Pipeline.mem_restRefs_of b hs ha, Finset.notMem_singleton.mpr hb⟩

/-- The program runs and leaves its five argument arrays as they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (arg_rest main_arg0 (by decide) (by decide) (by decide))).trans (V_main_arg0 m c),
     ((h c).2 main_arg1 (arg_rest main_arg1 (by decide) (by decide) (by decide))).trans (V_main_arg1 m c),
     ((h c).2 main_arg2 (arg_rest main_arg2 (by decide) (by decide) (by decide))).trans (V_main_arg2 m c),
     ((h c).2 main_arg3 (arg_rest main_arg3 (by decide) (by decide) (by decide))).trans (V_main_arg3 m c),
     ((h c).2 main_arg4 (arg_rest main_arg4 (by decide) (by decide) (by decide))).trans (V_main_arg4 m c)⟩) (run_main m ρ)

end Cert.Kernel.Hand

end
-- ==== Proof.IdealBody.lean ====
/-
  The kernel body of `Cert.KernelIdeal`, at any float instance: one point of the grid works on a 512-row block of the
  flattened edge features `x` (512 × 3712, the 29 × 128 components of an edge laid side by side) and on the three
  weight matrices and the bias, whole. It stores the output block in five column ranges that tile its 3712 columns:

    columns    0 ‥  895   x[:, 0:896] · W0ᵀ + b0                                            (m = 0)
    columns  896 ‥ 1663   (x[:, 896:1664] · W1ᵀ)[:, :768]  −  (x[:, 1664:2432] · W1ᵀ)[:, 768:]   (m = 1, "pos")
    columns 1664 ‥ 2431   (x[:, 1664:2432] · W1ᵀ)[:, :768]  +  (x[:, 896:1664] · W1ᵀ)[:, 768:]   (m = 1, "neg")
    columns 2432 ‥ 3071   the same two combinations for m = 2 over x[:, 2432:3072], x[:, 3072:3712] and W2ᵀ
    columns 3072 ‥ 3711

  `outBlock` is what the output's staging buffer holds after the body as one function of the five input buffers (the
  five stores as pieces, the last store first); `covered` says every column lies in one of the five ranges; and
  `sound_kernel` is the body's triple: the inputs' buffers are left as they were, the output's buffer — whatever it
  held — ends at `outBlock` of them.
-/
import proofs.«134654_j42305427866205_2_alg».proof.Proof.Gen.KernelIdeal.Frame
import proofs.«134654_j42305427866205_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The five column ranges of a 512 × 3712 block, and the whole weight and bias buffers -/

abbrev colsM0 : Rect S512x3712 := Rect.unit (s := S512x3712) ![0, 0] S512x896.size inb_S512x3712_S512x896_0_0
abbrev colsM1re : Rect S512x3712 := Rect.unit (s := S512x3712) ![0, 896] S512x768.size inb_S512x3712_S512x768_0_896
abbrev colsM1im : Rect S512x3712 := Rect.unit (s := S512x3712) ![0, 1664] S512x768.size inb_S512x3712_S512x768_0_1664
abbrev colsM2re : Rect S512x3712 := Rect.unit (s := S512x3712) ![0, 2432] S512x640.size inb_S512x3712_S512x640_0_2432
abbrev colsM2im : Rect S512x3712 := Rect.unit (s := S512x3712) ![0, 3072] S512x640.size inb_S512x3712_S512x640_0_3072
abbrev allW0 : Rect S896x896 := Rect.unit (s := S896x896) ![0, 0] S896x896.size inb_S896x896_S896x896_0_0
abbrev allB0 : Rect S1x896 := Rect.unit (s := S1x896) ![0, 0] S1x896.size inb_S1x896_S1x896_0_0
abbrev allW1 : Rect S768x1536 := Rect.unit (s := S768x1536) ![0, 0] S768x1536.size inb_S768x1536_S768x1536_0_0
abbrev allW2 : Rect S640x1280 := Rect.unit (s := S640x1280) ![0, 0] S640x1280.size inb_S640x1280_S640x1280_0_0

/-! ## What the body leaves in the output's buffer -/

/-- The output block after the body, from the five input buffers: the five stores as pieces, the last store first. -/
def outBlock (x : Vec F S512x3712 .bf16) (w0 : Vec F S896x896 .bf16) (b0 : Vec F S1x896 .f32)
    (w1 : Vec F S768x1536 .bf16) (w2 : Vec F S640x1280 .bf16) : Vec F S512x3712 .f32 :=
  View.canon [⟨colsM2im, k0_pay4 (k0_pay10 (View.ld x colsM2re)) (View.ld x colsM2im) (View.ld w2 allW2) (View.ld w2 allW2)⟩,
    ⟨colsM2re, k0_pay3 (k0_pay10 (View.ld x colsM2re)) (View.ld x colsM2im) (View.ld w2 allW2) (View.ld w2 allW2)⟩,
    ⟨colsM1im, k0_pay9 (View.ld x colsM1re) (View.ld x colsM1im) (View.ld w1 allW1) (View.ld w1 allW1)⟩,
    ⟨colsM1re, k0_pay8 (View.ld x colsM1re) (View.ld x colsM1im) (View.ld w1 allW1) (View.ld w1 allW1)⟩,
    ⟨colsM0, k0_pay5 (View.ld x colsM0) (View.ld w0 allW0) (View.ld b0 allB0)⟩]

/-- Every element of the block lies in one of the five column ranges: 896 + 768 + 768 + 640 + 640 = 3712, and each
    range spans all 512 rows. -/
theorem covered (p4 p3 : Vec F S512x640 .f32) (p9 p8 : Vec F S512x768 .f32) (p5 : Vec F S512x896 .f32) (y : S512x3712.Idx) :
    ∃ pc ∈ ([⟨colsM2im, p4⟩, ⟨colsM2re, p3⟩, ⟨colsM1im, p9⟩, ⟨colsM1re, p8⟩, ⟨colsM0, p5⟩] : List (View.Piece (Elt F) S512x3712 .f32)),
      y ∈ pc.1.set := by
  have h0 : (y 0 : Nat) < 512 := (y 0).isLt
  have h1 : (y 1 : Nat) < 3712 := (y 1).isLt
  have two : ∀ (o n : Nat) (r : Rect S512x3712), (∀ a, r.off a = (![0, o] : Fin 2 → Nat) a) → True := fun _ _ _ _ => trivial
  by_cases c0 : (y 1 : Nat) < 896
  · refine ⟨⟨colsM0, p5⟩, by simp, ?_⟩
    rw [Rect.mem_set_unit]; intro a
    match a with
    | ⟨0, _⟩ => exact ⟨Nat.zero_le _, by show (y 0 : Nat) < 0 + 512; omega⟩
    | ⟨1, _⟩ => exact ⟨Nat.zero_le _, by show (y 1 : Nat) < 0 + 896; omega⟩
  by_cases c1 : (y 1 : Nat) < 1664
  · refine ⟨⟨colsM1re, p8⟩, by simp, ?_⟩
    rw [Rect.mem_set_unit]; intro a
    match a with
    | ⟨0, _⟩ => exact ⟨Nat.zero_le _, by show (y 0 : Nat) < 0 + 512; omega⟩
    | ⟨1, _⟩ => exact ⟨by show 896 ≤ (y 1 : Nat); omega, by show (y 1 : Nat) < 896 + 768; omega⟩
  by_cases c2 : (y 1 : Nat) < 2432
  · refine ⟨⟨colsM1im, p9⟩, by simp, ?_⟩
    rw [Rect.mem_set_unit]; intro a
    match a with
    | ⟨0, _⟩ => exact ⟨Nat.zero_le _, by show (y 0 : Nat) < 0 + 512; omega⟩
    | ⟨1, _⟩ => exact ⟨by show 1664 ≤ (y 1 : Nat); omega, by show (y 1 : Nat) < 1664 + 768; omega⟩
  by_cases c3 : (y 1 : Nat) < 3072
  · refine ⟨⟨colsM2re, p3⟩, by simp, ?_⟩
    rw [Rect.mem_set_unit]; intro a
    match a with
    | ⟨0, _⟩ => exact ⟨Nat.zero_le _, by show (y 0 : Nat) < 0 + 512; omega⟩
    | ⟨1, _⟩ => exact ⟨by show 2432 ≤ (y 1 : Nat); omega, by show (y 1 : Nat) < 2432 + 640; omega⟩
  · refine ⟨⟨colsM2im, p4⟩, by simp, ?_⟩
    rw [Rect.mem_set_unit]; intro a
    match a with
    | ⟨0, _⟩ => exact ⟨Nat.zero_le _, by show (y 0 : Nat) < 0 + 512; omega⟩
    | ⟨1, _⟩ => exact ⟨by show 3072 ≤ (y 1 : Nat); omega, by show (y 1 : Nat) < 3072 + 640; omega⟩

/-! ## The body's triple -/

set_option maxHeartbeats 4000000 in
/-- The body on whole staging buffers — the inputs' at contents `x`, `w0`, `b0`, `w1`, `w2`, the output's at anything —
    runs to the continuation holding the inputs' as they were and the output's at `outBlock` of them. The loads of the
    output's buffer that precede each store read values nothing uses. -/
theorem sound_kernel (c : Dev nD) (E : Set ℕ) (i : grid0.Coords)
    (arg1 : Memref sig .tc .vmem S512x3712 .bf16) (harg1 : arg1.IsWhole) (arg2 : Memref sig .tc .vmem S896x896 .bf16) (harg2 : arg2.IsWhole)
    (arg3 : Memref sig .tc .vmem S1x896 .f32) (harg3 : arg3.IsWhole) (arg4 : Memref sig .tc .vmem S768x1536 .bf16) (harg4 : arg4.IsWhole)
    (arg5 : Memref sig .tc .vmem S640x1280 .bf16) (harg5 : arg5.IsWhole) (arg6 : Memref sig .tc .vmem S512x3712 .f32) (harg6 : arg6.IsWhole)
    (x : Vec F S512x3712 .bf16) (w0 : Vec F S896x896 .bf16) (b0 : Vec F S1x896 .f32) (w1 : Vec F S768x1536 .bf16) (w2 : Vec F S640x1280 .bf16)
    (K : PUnit → sProp 𝕄) :
    iprop(owns (c : Thread nD τ) arg1 fullShare x ∗ owns (c : Thread nD τ) arg2 fullShare w0 ∗ owns (c : Thread nD τ) arg3 fullShare b0
        ∗ owns (c : Thread nD τ) arg4 fullShare w1 ∗ owns (c : Thread nD τ) arg5 fullShare w2 ∗ (∃ d, owns (c : Thread nD τ) arg6 fullShare d)
        ∗ (iprop(owns (c : Thread nD τ) arg1 fullShare x ∗ owns (c : Thread nD τ) arg2 fullShare w0 ∗ owns (c : Thread nD τ) arg3 fullShare b0
            ∗ owns (c : Thread nD τ) arg4 fullShare w1 ∗ owns (c : Thread nD τ) arg5 fullShare w2
            ∗ owns (c : Thread nD τ) arg6 fullShare (outBlock x w0 b0 w1 w2)) -∗ K ⟨⟩))
      ⊢ wp frame (wpE (defs₀ (F := F)) Variants.none c none) E
          (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (covered _ _ _ _ _)

end Cert.KernelIdeal.Hand

end
-- ==== Proof.Spec.lean ====
/-
  What both programs compute, as one function of the argument arrays, index by index, on the extended reals.

  An edge `e` carries 29 components of 128 channels; laid side by side they are a row of 3712 numbers (`flat`). The
  row is cut into five consecutive stretches: 7 components (896 numbers) for order m = 0, then 6 + 6 components
  (768 + 768) for the "real" and "imaginary" halves of order m = 1, then 5 + 5 components (640 + 640) for order m = 2.
  With the weights read as `w k o` (`k` the contracted input channel, `o` the output channel) the result row is

    m = 0 :  out[o]        = Σ_k x0[k] · w0 k o  +  b[o]                                o < 896
    m = 1 :  pos[o]        = Σ_k xr[k] · w1 k o        −  Σ_k xi[k] · w1 k (768 + o)    o < 768
             neg[o]        = Σ_k xi[k] · w1 k o        +  Σ_k xr[k] · w1 k (768 + o)
    m = 2 :  the same with 640 in place of 768 and w2 in place of w1

  laid side by side in the order out, pos₁, neg₁, pos₂, neg₂ (`rowOut`), and folded back into 29 components of 128
  (`G`). The sums are finite sums in the commutative monoid of the extended reals; nothing here needs the inputs finite.
-/
import Idealize.ShloMosaic.PureOps.Ideal
import Idealize.ShloMosaic.Lib.ValueIdx

noncomputable section

namespace Cert.Spec

open Idealize.ShloMosaic ValueIdx

/-- The m = 0 stretch: one dense layer with bias over the first 896 numbers of the row. -/
def m0 (xr : Fin 3712 → EReal) (w0 : Fin 896 → Fin 896 → EReal) (b : Fin 896 → EReal) (o : Fin 896) : EReal :=
  (∑ k : Fin 896, xr ⟨k.val, by have := k.isLt; omega⟩ * w0 k o) + b o

/-- The product of the stretch of `n` numbers starting at column `base` with column `o` of a weight matrix. -/
def dotAt (xr : Fin 3712 → EReal) (base n N : Nat) (hb : base + n ≤ 3712) (w : Fin n → Fin N → EReal) (o : Fin N) : EReal :=
  ∑ k : Fin n, xr ⟨base + k.val, by have := k.isLt; omega⟩ * w k o

/-- The m = 1 stretches (real half at column 896, imaginary half at column 1664, 768 numbers each). -/
def pos1 (xr : Fin 3712 → EReal) (w1 : Fin 768 → Fin 1536 → EReal) (o : Fin 768) : EReal :=
  dotAt xr 896 768 1536 (by norm_num) w1 ⟨o.val, by have := o.isLt; omega⟩
    - dotAt xr 1664 768 1536 (by norm_num) w1 ⟨768 + o.val, by have := o.isLt; omega⟩
def neg1 (xr : Fin 3712 → EReal) (w1 : Fin 768 → Fin 1536 → EReal) (o : Fin 768) : EReal :=
  dotAt xr 1664 768 1536 (by norm_num) w1 ⟨o.val, by have := o.isLt; omega⟩
    + dotAt xr 896 768 1536 (by norm_num) w1 ⟨768 + o.val, by have := o.isLt; omega⟩

/-- The m = 2 stretches (real half at column 2432, imaginary half at column 3072, 640 numbers each). -/
def pos2 (xr : Fin 3712 → EReal) (w2 : Fin 640 → Fin 1280 → EReal) (o : Fin 640) : EReal :=
  dotAt xr 2432 640 1280 (by norm_num) w2 ⟨o.val, by have := o.isLt; omega⟩
    - dotAt xr 3072 640 1280 (by norm_num) w2 ⟨640 + o.val, by have := o.isLt; omega⟩
def neg2 (xr : Fin 3712 → EReal) (w2 : Fin 640 → Fin 1280 → EReal) (o : Fin 640) : EReal :=
  dotAt xr 3072 640 1280 (by norm_num) w2 ⟨o.val, by have := o.isLt; omega⟩
    + dotAt xr 2432 640 1280 (by norm_num) w2 ⟨640 + o.val, by have := o.isLt; omega⟩

/-- The result row of one edge from its feature row: the five stretches side by side. -/
def rowOut (xr : Fin 3712 → EReal) (w0 : Fin 896 → Fin 896 → EReal) (b : Fin 896 → EReal)
    (w1 : Fin 768 → Fin 1536 → EReal) (w2 : Fin 640 → Fin 1280 → EReal) (q : Fin 3712) : EReal :=
  if h0 : q.val < 896 then m0 xr w0 b ⟨q.val, h0⟩
  else if h1 : q.val < 1664 then pos1 xr w1 ⟨q.val - 896, by omega⟩
  else if h2 : q.val < 2432 then neg1 xr w1 ⟨q.val - 1664, by omega⟩
  else if h3 : q.val < 3072 then pos2 xr w2 ⟨q.val - 2432, by omega⟩
  else neg2 xr w2 ⟨q.val - 3072, by have := q.isLt; omega⟩

theorem rowOut_m0 (xr w0 b w1 w2) (o : Fin 896) :
    rowOut xr w0 b w1 w2 ⟨o.val, by have := o.isLt; omega⟩ = m0 xr w0 b o := by
  unfold rowOut; rw [dif_pos o.isLt]
theorem rowOut_pos1 (xr w0 b w1 w2) (o : Fin 768) :
    rowOut xr w0 b w1 w2 ⟨896 + o.val, by have := o.isLt; omega⟩ = pos1 xr w1 o := by
  have := o.isLt
  unfold rowOut; rw [dif_neg (by show ¬ 896 + o.val < 896; omega), dif_pos (by show 896 + o.val < 1664; omega)]
  congr 1; exact Fin.ext (by show 896 + o.val - 896 = o.val; omega)
theorem rowOut_neg1 (xr w0 b w1 w2) (o : Fin 768) :
    rowOut xr w0 b w1 w2 ⟨1664 + o.val, by have := o.isLt; omega⟩ = neg1 xr w1 o := by
  have := o.isLt
  unfold rowOut; rw [dif_neg (by show ¬ 1664 + o.val < 896; omega), dif_neg (by show ¬ 1664 + o.val < 1664; omega),
    dif_pos (by show 1664 + o.val < 2432; omega)]
  congr 1; exact Fin.ext (by show 1664 + o.val - 1664 = o.val; omega)
theorem rowOut_pos2 (xr w0 b w1 w2) (o : Fin 640) :
    rowOut xr w0 b w1 w2 ⟨2432 + o.val, by have := o.isLt; omega⟩ = pos2 xr w2 o := by
  have := o.isLt
  unfold rowOut; rw [dif_neg (by show ¬ 2432 + o.val < 896; omega), dif_neg (by show ¬ 2432 + o.val < 1664; omega),
    dif_neg (by show ¬ 2432 + o.val < 2432; omega), dif_pos (by show 2432 + o.val < 3072; omega)]
  congr 1; exact Fin.ext (by show 2432 + o.val - 2432 = o.val; omega)
theorem rowOut_neg2 (xr w0 b w1 w2) (o : Fin 640) :
    rowOut xr w0 b w1 w2 ⟨3072 + o.val, by have := o.isLt; omega⟩ = neg2 xr w2 o := by
  have := o.isLt
  unfold rowOut; rw [dif_neg (by show ¬ 3072 + o.val < 896; omega), dif_neg (by show ¬ 3072 + o.val < 1664; omega),
    dif_neg (by show ¬ 3072 + o.val < 2432; omega), dif_neg (by show ¬ 3072 + o.val < 3072; omega)]
  congr 1; exact Fin.ext (by show 3072 + o.val - 3072 = o.val; omega)

/-- The result row depends on the feature row only. -/
theorem rowOut_congr {xr xr' : Fin 3712 → EReal} (h : xr = xr') (w0 b w1 w2 q) :
    rowOut xr w0 b w1 w2 q = rowOut xr' w0 b w1 w2 q := by rw [h]

/-- An edge's 29 × 128 features as a row of 3712: column `q` is component `q / 128`, channel `q % 128`. -/
def flat (x : (⟨3, ![50000, 29, 128]⟩ : Shape).Idx → EReal) (e : Fin 50000) (q : Fin 3712) : EReal :=
  x (ix3 e ⟨q.val / 128, by have := q.isLt; omega⟩ ⟨q.val % 128, Nat.mod_lt _ (by norm_num)⟩)

/-- The result array: component `l`, channel `ch` of edge `e` is column `l * 128 + ch` of the edge's result row. The weights
    are stored output channel first (`W[o, k]`), the bias as a vector. -/
def G (x : (⟨3, ![50000, 29, 128]⟩ : Shape).Idx → EReal) (W0 : (⟨2, ![896, 896]⟩ : Shape).Idx → EReal)
    (b0 : (⟨1, ![896]⟩ : Shape).Idx → EReal) (W1 : (⟨2, ![1536, 768]⟩ : Shape).Idx → EReal)
    (W2 : (⟨2, ![1280, 640]⟩ : Shape).Idx → EReal) : (⟨3, ![50000, 29, 128]⟩ : Shape).Idx → EReal :=
  fun i => rowOut (flat x (i 0)) (fun k o => W0 (ix2 o k)) (fun o => b0 (ix1 o)) (fun k o => W1 (ix2 o k))
    (fun k o => W2 (ix2 o k))
    ⟨(i 1).val * 128 + (i 2).val, by
      have h1 : (i 1).val < 29 := (i 1).isLt
      have h2 : (i 2).val < 128 := (i 2).isLt
      omega⟩

end Cert.Spec

end
-- ==== Proof.IdealBlock.lean ====
/-
  The output block of the idealized kernel, read at an index: entry (p, q) of the 512 × 3712 block the body leaves is
  the specification's row function `Cert.Spec.rowOut` of row `p` of the `x` buffer, with the staged weights read as
  (contracted position, output column) and the staged bias as a row — each of the five stores agrees with that one
  function on its column range (`block_eq`). In particular an output row depends on the SAME row of `x` only
  (`blockG_congr_rows`): what the buffer holds below the rows a clipped fetch filled never reaches the rows written back.
  On the extended reals a matrix product into a zero accumulator is the plain sum of products; a slice, a sum and a
  difference are read entry by entry.
-/
import proofs.«134654_j42305427866205_2_alg».proof.Proof.IdealBody
import proofs.«134654_j42305427866205_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe ValueIdx
open Cert.Spec

/-! ## The three matrix products at an index -/

theorem mm896_apply_row (i : S512x896.Idx) (q : dot_S512x896_S896x896_S512x896_1_0_0_1_n_n.contr.Idx) : (dot_S512x896_S896x896_S512x896_1_0_0_1_n_n.lhsIdx i q 0).val = (i 0).val := by
  unfold DotDims.lhsIdx
  rw [dif_neg (show ¬(0 : Fin S512x896.rank) ∈ dot_S512x896_S896x896_S512x896_1_0_0_1_n_n.lhsBatch by decide), dif_pos (show (0 : Fin S512x896.rank) ∈ dot_S512x896_S896x896_S512x896_1_0_0_1_n_n.lhsNonContracting by decide)]
  rfl
theorem mm896_apply_col (i : S512x896.Idx) (q : dot_S512x896_S896x896_S512x896_1_0_0_1_n_n.contr.Idx) : (dot_S512x896_S896x896_S512x896_1_0_0_1_n_n.rhsIdx i q 1).val = (i 1).val := by
  unfold DotDims.rhsIdx
  rw [dif_neg (show ¬(1 : Fin S896x896.rank) ∈ dot_S512x896_S896x896_S512x896_1_0_0_1_n_n.rhsBatch by decide), dif_pos (show (1 : Fin S896x896.rank) ∈ dot_S512x896_S896x896_S512x896_1_0_0_1_n_n.rhsNonContracting by decide)]
  rfl
/-- Row `p`, column `o` of the 512 × 896 by 896 × 896 product into a zero accumulator is the sum over the 896 contracted
    positions of the products. -/
theorem mm896_apply (l : FVec Ideal S512x896 .bf16) (r : FVec Ideal S896x896 .bf16) (p : Fin 512) (o : Fin 896) :
    matmul dot_S512x896_S896x896_S512x896_1_0_0_1_n_n none l r (constant (F := Ideal) S512x896 .f32 0x00000000#32) (ix2 p o)
      = ∑ k : Fin 896, l (ix2 p k) * r (ix2 k o) := by
  refine (Ideal.matmul_constant_zero_apply dot_S512x896_S896x896_S512x896_1_0_0_1_n_n none l r (ix2 p o)).trans ?_
  rw [← Equiv.sum_comp (ValueIdx.contrEquiv1 dot_S512x896_S896x896_S512x896_1_0_0_1_n_n 896 rfl rfl).symm]
  refine Finset.sum_congr rfl fun k _ => ?_
  have hk := ValueIdx.contrEquiv1_symm_val dot_S512x896_S896x896_S512x896_1_0_0_1_n_n 896 rfl rfl k
  have el : dot_S512x896_S896x896_S512x896_1_0_0_1_n_n.lhsIdx (ix2 p o) ((ValueIdx.contrEquiv1 dot_S512x896_S896x896_S512x896_1_0_0_1_n_n 896 rfl rfl).symm k) = ix2 p k := funext fun a => Fin.ext (by
    match a with
    | ⟨0, _⟩ => exact mm896_apply_row _ _
    | ⟨1, _⟩ => exact (dot_S512x896_S896x896_S512x896_1_0_0_1_n_n.lhsIdx_val_of_single rfl _ _).trans hk)
  have er : dot_S512x896_S896x896_S512x896_1_0_0_1_n_n.rhsIdx (ix2 p o) ((ValueIdx.contrEquiv1 dot_S512x896_S896x896_S512x896_1_0_0_1_n_n 896 rfl rfl).symm k) = ix2 k o := funext fun a => Fin.ext (by
    match a with
    | ⟨0, _⟩ => exact (dot_S512x896_S896x896_S512x896_1_0_0_1_n_n.rhsIdx_val_of_single rfl _ _).trans hk
    | ⟨1, _⟩ => exact mm896_apply_col _ _)
  rw [el, er]

theorem mm768_apply_row (i : S512x1536.Idx) (q : dot_S512x768_S768x1536_S512x1536_1_0_0_1_n_n.contr.Idx) : (dot_S512x768_S768x1536_S512x1536_1_0_0_1_n_n.lhsIdx i q 0).val = (i 0).val := by
  unfold DotDims.lhsIdx
  rw [dif_neg (show ¬(0 : Fin S512x768.rank) ∈ dot_S512x768_S768x1536_S512x1536_1_0_0_1_n_n.lhsBatch by decide), dif_pos (show (0 : Fin S512x768.rank) ∈ dot_S512x768_S768x1536_S512x1536_1_0_0_1_n_n.lhsNonContracting by decide)]
  rfl
theorem mm768_apply_col (i : S512x1536.Idx) (q : dot_S512x768_S768x1536_S512x1536_1_0_0_1_n_n.contr.Idx) : (dot_S512x768_S768x1536_S512x1536_1_0_0_1_n_n.rhsIdx i q 1).val = (i 1).val := by
  unfold DotDims.rhsIdx
  rw [dif_neg (show ¬(1 : Fin S768x1536.rank) ∈ dot_S512x768_S768x1536_S512x1536_1_0_0_1_n_n.rhsBatch by decide), dif_pos (show (1 : Fin S768x1536.rank) ∈ dot_S512x768_S768x1536_S512x1536_1_0_0_1_n_n.rhsNonContracting by decide)]
  rfl
/-- Row `p`, column `o` of the 512 × 768 by 768 × 1536 product into a zero accumulator is the sum over the 768 contracted
    positions of the products. -/
theorem mm768_apply (l : FVec Ideal S512x768 .bf16) (r : FVec Ideal S768x1536 .bf16) (p : Fin 512) (o : Fin 1536) :
    matmul dot_S512x768_S768x1536_S512x1536_1_0_0_1_n_n none l r (constant (F := Ideal) S512x1536 .f32 0x00000000#32) (ix2 p o)
      = ∑ k : Fin 768, l (ix2 p k) * r (ix2 k o) := by
  refine (Ideal.matmul_constant_zero_apply dot_S512x768_S768x1536_S512x1536_1_0_0_1_n_n none l r (ix2 p o)).trans ?_
  rw [← Equiv.sum_comp (ValueIdx.contrEquiv1 dot_S512x768_S768x1536_S512x1536_1_0_0_1_n_n 768 rfl rfl).symm]
  refine Finset.sum_congr rfl fun k _ => ?_
  have hk := ValueIdx.contrEquiv1_symm_val dot_S512x768_S768x1536_S512x1536_1_0_0_1_n_n 768 rfl rfl k
  have el : dot_S512x768_S768x1536_S512x1536_1_0_0_1_n_n.lhsIdx (ix2 p o) ((ValueIdx.contrEquiv1 dot_S512x768_S768x1536_S512x1536_1_0_0_1_n_n 768 rfl rfl).symm k) = ix2 p k := funext fun a => Fin.ext (by
    match a with
    | ⟨0, _⟩ => exact mm768_apply_row _ _
    | ⟨1, _⟩ => exact (dot_S512x768_S768x1536_S512x1536_1_0_0_1_n_n.lhsIdx_val_of_single rfl _ _).trans hk)
  have er : dot_S512x768_S768x1536_S512x1536_1_0_0_1_n_n.rhsIdx (ix2 p o) ((ValueIdx.contrEquiv1 dot_S512x768_S768x1536_S512x1536_1_0_0_1_n_n 768 rfl rfl).symm k) = ix2 k o := funext fun a => Fin.ext (by
    match a with
    | ⟨0, _⟩ => exact (dot_S512x768_S768x1536_S512x1536_1_0_0_1_n_n.rhsIdx_val_of_single rfl _ _).trans hk
    | ⟨1, _⟩ => exact mm768_apply_col _ _)
  rw [el, er]

theorem mm640_apply_row (i : S512x1280.Idx) (q : dot_S512x640_S640x1280_S512x1280_1_0_0_1_n_n.contr.Idx) : (dot_S512x640_S640x1280_S512x1280_1_0_0_1_n_n.lhsIdx i q 0).val = (i 0).val := by
  unfold DotDims.lhsIdx
  rw [dif_neg (show ¬(0 : Fin S512x640.rank) ∈ dot_S512x640_S640x1280_S512x1280_1_0_0_1_n_n.lhsBatch by decide), dif_pos (show (0 : Fin S512x640.rank) ∈ dot_S512x640_S640x1280_S512x1280_1_0_0_1_n_n.lhsNonContracting by decide)]
  rfl
theorem mm640_apply_col (i : S512x1280.Idx) (q : dot_S512x640_S640x1280_S512x1280_1_0_0_1_n_n.contr.Idx) : (dot_S512x640_S640x1280_S512x1280_1_0_0_1_n_n.rhsIdx i q 1).val = (i 1).val := by
  unfold DotDims.rhsIdx
  rw [dif_neg (show ¬(1 : Fin S640x1280.rank) ∈ dot_S512x640_S640x1280_S512x1280_1_0_0_1_n_n.rhsBatch by decide), dif_pos (show (1 : Fin S640x1280.rank) ∈ dot_S512x640_S640x1280_S512x1280_1_0_0_1_n_n.rhsNonContracting by decide)]
  rfl
/-- Row `p`, column `o` of the 512 × 640 by 640 × 1280 product into a zero accumulator is the sum over the 640 contracted
    positions of the products. -/
theorem mm640_apply (l : FVec Ideal S512x640 .bf16) (r : FVec Ideal S640x1280 .bf16) (p : Fin 512) (o : Fin 1280) :
    matmul dot_S512x640_S640x1280_S512x1280_1_0_0_1_n_n none l r (constant (F := Ideal) S512x1280 .f32 0x00000000#32) (ix2 p o)
      = ∑ k : Fin 640, l (ix2 p k) * r (ix2 k o) := by
  refine (Ideal.matmul_constant_zero_apply dot_S512x640_S640x1280_S512x1280_1_0_0_1_n_n none l r (ix2 p o)).trans ?_
  rw [← Equiv.sum_comp (ValueIdx.contrEquiv1 dot_S512x640_S640x1280_S512x1280_1_0_0_1_n_n 640 rfl rfl).symm]
  refine Finset.sum_congr rfl fun k _ => ?_
  have hk := ValueIdx.contrEquiv1_symm_val dot_S512x640_S640x1280_S512x1280_1_0_0_1_n_n 640 rfl rfl k
  have el : dot_S512x640_S640x1280_S512x1280_1_0_0_1_n_n.lhsIdx (ix2 p o) ((ValueIdx.contrEquiv1 dot_S512x640_S640x1280_S512x1280_1_0_0_1_n_n 640 rfl rfl).symm k) = ix2 p k := funext fun a => Fin.ext (by
    match a with
    | ⟨0, _⟩ => exact mm640_apply_row _ _
    | ⟨1, _⟩ => exact (dot_S512x640_S640x1280_S512x1280_1_0_0_1_n_n.lhsIdx_val_of_single rfl _ _).trans hk)
  have er : dot_S512x640_S640x1280_S512x1280_1_0_0_1_n_n.rhsIdx (ix2 p o) ((ValueIdx.contrEquiv1 dot_S512x640_S640x1280_S512x1280_1_0_0_1_n_n 640 rfl rfl).symm k) = ix2 k o := funext fun a => Fin.ext (by
    match a with
    | ⟨0, _⟩ => exact (dot_S512x640_S640x1280_S512x1280_1_0_0_1_n_n.rhsIdx_val_of_single rfl _ _).trans hk
    | ⟨1, _⟩ => exact mm640_apply_col _ _)
  rw [el, er]

/-! ## The payloads at an index -/

/-- The m = 0 payload: product plus the bias row, broadcast down the 512 rows. -/
theorem pay5_apply (v0 : Vec Ideal S512x896 .bf16) (v2 : Vec Ideal S896x896 .bf16) (v5 : Vec Ideal S1x896 .f32) (p : Fin 512) (o : Fin 896) :
    k0_pay5 v0 v2 v5 (ix2 p o) = (∑ k : Fin 896, v0 (ix2 p k) * v2 (ix2 k o)) + v5 (ix2 (0 : Fin 1) o) := by
  unfold k0_pay5
  rw [addf_apply, shapeCast_self, shapeCast_self, shapeCast_self, mm896_apply]
  refine congrArg (_ + ·) ?_
  exact broadcastTo_apply v5 broadcasts_S1x896_S512x896 (ix2 p o) (ix2 (0 : Fin 1) o) (fun a => by
    match a with
    | ⟨0, _⟩ => rfl
    | ⟨1, _⟩ => rfl)

theorem pay6_apply (v10 : Vec Ideal S512x768 .bf16) (v14 : Vec Ideal S768x1536 .bf16) (p : Fin 512) (o : Fin 1536) :
    k0_pay6 v10 v14 (ix2 p o) = ∑ k : Fin 768, v10 (ix2 p k) * v14 (ix2 k o) := by
  unfold k0_pay6
  rw [shapeCast_self, shapeCast_self, mm768_apply]
theorem pay7_apply (v12 : Vec Ideal S512x768 .bf16) (v17 : Vec Ideal S768x1536 .bf16) (p : Fin 512) (o : Fin 1536) :
    k0_pay7 v12 v17 (ix2 p o) = ∑ k : Fin 768, v12 (ix2 p k) * v17 (ix2 k o) := by
  unfold k0_pay7
  rw [shapeCast_self, shapeCast_self, mm768_apply]
theorem pay1_apply (v29 : FVec Ideal S512x640 .bf16) (v32 : Vec Ideal S640x1280 .bf16) (p : Fin 512) (o : Fin 1280) :
    k0_pay1 v29 v32 (ix2 p o) = ∑ k : Fin 640, v29 (ix2 p k) * v32 (ix2 k o) := by
  unfold k0_pay1
  rw [shapeCast_self, mm640_apply]
theorem pay2_apply (v30 : Vec Ideal S512x640 .bf16) (v35 : Vec Ideal S640x1280 .bf16) (p : Fin 512) (o : Fin 1280) :
    k0_pay2 v30 v35 (ix2 p o) = ∑ k : Fin 640, v30 (ix2 p k) * v35 (ix2 k o) := by
  unfold k0_pay2
  rw [shapeCast_self, shapeCast_self, mm640_apply]

/-- The left and right halves of a 1536-wide (1280-wide) product, read at an index. -/
theorem half768_lo (z : FVec Ideal S512x1536 .f32) (p : Fin 512) (o : Fin 768) :
    extractStridedSlice S512x768 ![0, 0] z slices_S512x1536_o0_0_S512x768 (ix2 p o) = z (ix2 p ⟨o.val, by have := o.isLt; omega⟩) :=
  extractStridedSlice_apply ![0, 0] z slices_S512x1536_o0_0_S512x768 (ix2 p o) _ (fun a => by
    match a with
    | ⟨0, _⟩ => show p.val = 0 + p.val; omega
    | ⟨1, _⟩ => show o.val = 0 + o.val; omega)
theorem half768_hi (z : FVec Ideal S512x1536 .f32) (p : Fin 512) (o : Fin 768) :
    extractStridedSlice S512x768 ![0, 768] z slices_S512x1536_o0_768_S512x768 (ix2 p o) = z (ix2 p ⟨768 + o.val, by have := o.isLt; omega⟩) :=
  extractStridedSlice_apply ![0, 768] z slices_S512x1536_o0_768_S512x768 (ix2 p o) _ (fun a => by
    match a with
    | ⟨0, _⟩ => show p.val = 0 + p.val; omega
    | ⟨1, _⟩ => rfl)
theorem half640_lo (z : FVec Ideal S512x1280 .f32) (p : Fin 512) (o : Fin 640) :
    extractStridedSlice S512x640 ![0, 0] z slices_S512x1280_o0_0_S512x640 (ix2 p o) = z (ix2 p ⟨o.val, by have := o.isLt; omega⟩) :=
  extractStridedSlice_apply ![0, 0] z slices_S512x1280_o0_0_S512x640 (ix2 p o) _ (fun a => by
    match a with
    | ⟨0, _⟩ => show p.val = 0 + p.val; omega
    | ⟨1, _⟩ => show o.val = 0 + o.val; omega)
theorem half640_hi (z : FVec Ideal S512x1280 .f32) (p : Fin 512) (o : Fin 640) :
    extractStridedSlice S512x640 ![0, 640] z slices_S512x1280_o0_640_S512x640 (ix2 p o) = z (ix2 p ⟨640 + o.val, by have := o.isLt; omega⟩) :=
  extractStridedSlice_apply ![0, 640] z slices_S512x1280_o0_640_S512x640 (ix2 p o) _ (fun a => by
    match a with
    | ⟨0, _⟩ => show p.val = 0 + p.val; omega
    | ⟨1, _⟩ => rfl)

/-- The m = 1 payloads: "pos" is the real half's first 768 columns minus the imaginary half's last 768, "neg" the
    imaginary half's first plus the real half's last. -/
theorem pay8_apply (v10 v12 : Vec Ideal S512x768 .bf16) (v14 v17 : Vec Ideal S768x1536 .bf16) (p : Fin 512) (o : Fin 768) :
    k0_pay8 v10 v12 v14 v17 (ix2 p o)
      = (∑ k : Fin 768, v10 (ix2 p k) * v14 (ix2 k (⟨o.val, by have := o.isLt; omega⟩ : Fin 1536)))
        - ∑ k : Fin 768, v12 (ix2 p k) * v17 (ix2 k (⟨768 + o.val, by have := o.isLt; omega⟩ : Fin 1536)) := by
  unfold k0_pay8
  rw [subf_apply, half768_lo, half768_hi, pay6_apply, pay7_apply]
theorem pay9_apply (v10 v12 : Vec Ideal S512x768 .bf16) (v14 v17 : Vec Ideal S768x1536 .bf16) (p : Fin 512) (o : Fin 768) :
    k0_pay9 v10 v12 v14 v17 (ix2 p o)
      = (∑ k : Fin 768, v12 (ix2 p k) * v17 (ix2 k (⟨o.val, by have := o.isLt; omega⟩ : Fin 1536)))
        + ∑ k : Fin 768, v10 (ix2 p k) * v14 (ix2 k (⟨768 + o.val, by have := o.isLt; omega⟩ : Fin 1536)) := by
  unfold k0_pay9
  rw [addf_apply, half768_lo, half768_hi, pay6_apply, pay7_apply]

/-- The m = 2 payloads, likewise over 640 columns. -/
theorem pay3_apply (v29 : FVec Ideal S512x640 .bf16) (v30 : Vec Ideal S512x640 .bf16) (v32 v35 : Vec Ideal S640x1280 .bf16) (p : Fin 512) (o : Fin 640) :
    k0_pay3 v29 v30 v32 v35 (ix2 p o)
      = (∑ k : Fin 640, v29 (ix2 p k) * v32 (ix2 k (⟨o.val, by have := o.isLt; omega⟩ : Fin 1280)))
        - ∑ k : Fin 640, v30 (ix2 p k) * v35 (ix2 k (⟨640 + o.val, by have := o.isLt; omega⟩ : Fin 1280)) := by
  unfold k0_pay3
  rw [subf_apply, half640_lo, half640_hi, pay1_apply, pay2_apply]
theorem pay4_apply (v29 : FVec Ideal S512x640 .bf16) (v30 : Vec Ideal S512x640 .bf16) (v32 v35 : Vec Ideal S640x1280 .bf16) (p : Fin 512) (o : Fin 640) :
    k0_pay4 v29 v30 v32 v35 (ix2 p o)
      = (∑ k : Fin 640, v30 (ix2 p k) * v35 (ix2 k (⟨o.val, by have := o.isLt; omega⟩ : Fin 1280)))
        + ∑ k : Fin 640, v29 (ix2 p k) * v32 (ix2 k (⟨640 + o.val, by have := o.isLt; omega⟩ : Fin 1280)) := by
  unfold k0_pay4
  rw [addf_apply, half640_lo, half640_hi, pay1_apply, pay2_apply]

/-! ## The block as the row function of the `x` buffer's rows -/

/-- Row `p` of a 512 × 3712 buffer. -/
def bufRow (x : Vec Ideal S512x3712 .bf16) (p : Fin 512) : Fin 3712 → EReal := fun k => x (ix2 p k)

/-- The staged operands as the specification reads them: weights by (contracted position, output column), the bias row. -/
abbrev wAt {K N : Nat} (w : (⟨2, ![K, N]⟩ : Shape).Idx → EReal) : Fin K → Fin N → EReal := fun k o => w (ix2 k o)
abbrev bAt (b0 : Vec Ideal S1x896 .f32) : Fin 896 → EReal := fun o => b0 (ix2 (0 : Fin 1) o)

/-- Entry (p, q) of the output block: column `q` of the specification's result row for row `p` of the `x` buffer. -/
def blockG (x : Vec Ideal S512x3712 .bf16) (w0 : Vec Ideal S896x896 .bf16) (b0 : Vec Ideal S1x896 .f32)
    (w1 : Vec Ideal S768x1536 .bf16) (w2 : Vec Ideal S640x1280 .bf16) : Vec Ideal S512x3712 .f32 :=
  fun j => rowOut (bufRow x ⟨(j 0).val, (j 0).isLt⟩) (wAt w0) (bAt b0) (wAt w1) (wAt w2) ⟨(j 1).val, (j 1).isLt⟩

theorem blockG_ix2 (x : Vec Ideal S512x3712 .bf16) (w0 : Vec Ideal S896x896 .bf16) (b0 : Vec Ideal S1x896 .f32)
    (w1 : Vec Ideal S768x1536 .bf16) (w2 : Vec Ideal S640x1280 .bf16) (p : Fin 512) (q : Fin 3712) :
    blockG x w0 b0 w1 w2 (ix2 p q) = rowOut (bufRow x p) (wAt w0) (bAt b0) (wAt w1) (wAt w2) q := rfl

/-- An output row is a function of the same row of `x`: buffers that agree on row `p` give the same row `p`. -/
theorem blockG_congr_row (x x' : Vec Ideal S512x3712 .bf16) (w0 : Vec Ideal S896x896 .bf16) (b0 : Vec Ideal S1x896 .f32)
    (w1 : Vec Ideal S768x1536 .bf16) (w2 : Vec Ideal S640x1280 .bf16) (p : Fin 512) (q : Fin 3712)
    (h : ∀ k : Fin 3712, x (ix2 p k) = x' (ix2 p k)) :
    blockG x w0 b0 w1 w2 (ix2 p q) = blockG x' w0 b0 w1 w2 (ix2 p q) := by
  rw [blockG_ix2, blockG_ix2]
  exact rowOut_congr (funext h) _ _ _ _ _

/-! ## A column range's local index as a block index -/

theorem emb_M0 (p : Fin 512) (k : Fin 896) : colsM0.emb (ix2 p k) = ix2 p (⟨0 + k.val, by have := k.isLt; omega⟩ : Fin 3712) :=
  funext fun a => Fin.ext (by
    match a with
    | ⟨0, _⟩ => rw [Rect.emb_apply]; show 0 + 1 * p.val = p.val; omega
    | ⟨1, _⟩ => rw [Rect.emb_apply]; show 0 + 1 * k.val = 0 + k.val; omega)

theorem emb_M1re (p : Fin 512) (k : Fin 768) : colsM1re.emb (ix2 p k) = ix2 p (⟨896 + k.val, by have := k.isLt; omega⟩ : Fin 3712) :=
  funext fun a => Fin.ext (by
    match a with
    | ⟨0, _⟩ => rw [Rect.emb_apply]; show 0 + 1 * p.val = p.val; omega
    | ⟨1, _⟩ => rw [Rect.emb_apply]; show 896 + 1 * k.val = 896 + k.val; omega)

theorem emb_M1im (p : Fin 512) (k : Fin 768) : colsM1im.emb (ix2 p k) = ix2 p (⟨1664 + k.val, by have := k.isLt; omega⟩ : Fin 3712) :=
  funext fun a => Fin.ext (by
    match a with
    | ⟨0, _⟩ => rw [Rect.emb_apply]; show 0 + 1 * p.val = p.val; omega
    | ⟨1, _⟩ => rw [Rect.emb_apply]; show 1664 + 1 * k.val = 1664 + k.val; omega)

theorem emb_M2re (p : Fin 512) (k : Fin 640) : colsM2re.emb (ix2 p k) = ix2 p (⟨2432 + k.val, by have := k.isLt; omega⟩ : Fin 3712) :=
  funext fun a => Fin.ext (by
    match a with
    | ⟨0, _⟩ => rw [Rect.emb_apply]; show 0 + 1 * p.val = p.val; omega
    | ⟨1, _⟩ => rw [Rect.emb_apply]; show 2432 + 1 * k.val = 2432 + k.val; omega)

theorem emb_M2im (p : Fin 512) (k : Fin 640) : colsM2im.emb (ix2 p k) = ix2 p (⟨3072 + k.val, by have := k.isLt; omega⟩ : Fin 3712) :=
  funext fun a => Fin.ext (by
    match a with
    | ⟨0, _⟩ => rw [Rect.emb_apply]; show 0 + 1 * p.val = p.val; omega
    | ⟨1, _⟩ => rw [Rect.emb_apply]; show 3072 + 1 * k.val = 3072 + k.val; omega)

theorem zeros2 : (![0, 0] : Fin 2 → Nat) = fun _ => 0 := funext fun a => by
  match a with
  | ⟨0, _⟩ => rfl
  | ⟨1, _⟩ => rfl

/-! ## Each store's payload is the block function on its column range -/

section Pieces
variable (x : Vec Ideal S512x3712 .bf16) (w0 : Vec Ideal S896x896 .bf16) (b0 : Vec Ideal S1x896 .f32)
  (w1 : Vec Ideal S768x1536 .bf16) (w2 : Vec Ideal S640x1280 .bf16)

theorem piece_m0 (p : Fin 512) (o : Fin 896) :
    k0_pay5 (View.ld x colsM0) (View.ld w0 allW0) (View.ld b0 allB0) (ix2 p o) = blockG x w0 b0 w1 w2 (colsM0.emb (ix2 p o)) := by
  rw [pay5_apply, emb_M0, blockG_ix2]
  have e : (⟨0 + o.val, by have := o.isLt; omega⟩ : Fin 3712) = ⟨o.val, by have := o.isLt; omega⟩ := Fin.ext (by show 0 + o.val = o.val; omega)
  rw [e, rowOut_m0, View.ld_unit_zero zeros2, View.ld_unit_zero zeros2]
  unfold m0
  refine congrArg₂ (· + ·) (Finset.sum_congr rfl fun k _ => ?_) rfl
  refine congrArg (· * _) ?_
  show x (colsM0.emb (ix2 p k)) = _
  rw [emb_M0]
  exact congrArg x (congrArg (ix2 p) (Fin.ext (by show 0 + k.val = k.val; omega)))

theorem piece_pos1 (p : Fin 512) (o : Fin 768) :
    k0_pay8 (View.ld x colsM1re) (View.ld x colsM1im) (View.ld w1 allW1) (View.ld w1 allW1) (ix2 p o)
      = blockG x w0 b0 w1 w2 (colsM1re.emb (ix2 p o)) := by
  rw [pay8_apply, emb_M1re, blockG_ix2, rowOut_pos1, View.ld_unit_zero zeros2]
  unfold pos1 dotAt
  refine congrArg₂ (· - ·) (Finset.sum_congr rfl fun k _ => ?_) (Finset.sum_congr rfl fun k _ => ?_)
  · refine congrArg (· * _) ?_
    show x (colsM1re.emb (ix2 p k)) = _
    rw [emb_M1re]; rfl
  · refine congrArg (· * _) ?_
    show x (colsM1im.emb (ix2 p k)) = _
    rw [emb_M1im]; rfl

theorem piece_neg1 (p : Fin 512) (o : Fin 768) :
    k0_pay9 (View.ld x colsM1re) (View.ld x colsM1im) (View.ld w1 allW1) (View.ld w1 allW1) (ix2 p o)
      = blockG x w0 b0 w1 w2 (colsM1im.emb (ix2 p o)) := by
  rw [pay9_apply, emb_M1im, blockG_ix2, rowOut_neg1, View.ld_unit_zero zeros2]
  unfold neg1 dotAt
  refine congrArg₂ (· + ·) (Finset.sum_congr rfl fun k _ => ?_) (Finset.sum_congr rfl fun k _ => ?_)
  · refine congrArg (· * _) ?_
    show x (colsM1im.emb (ix2 p k)) = _
    rw [emb_M1im]; rfl
  · refine congrArg (· * _) ?_
    show x (colsM1re.emb (ix2 p k)) = _
    rw [emb_M1re]; rfl

theorem piece_pos2 (p : Fin 512) (o : Fin 640) :
    k0_pay3 (k0_pay10 (View.ld x colsM2re)) (View.ld x colsM2im) (View.ld w2 allW2) (View.ld w2 allW2) (ix2 p o)
      = blockG x w0 b0 w1 w2 (colsM2re.emb (ix2 p o)) := by
  rw [pay3_apply, emb_M2re, blockG_ix2, rowOut_pos2, View.ld_unit_zero zeros2]
  unfold pos2 dotAt k0_pay10
  rw [shapeCast_self]
  refine congrArg₂ (· - ·) (Finset.sum_congr rfl fun k _ => ?_) (Finset.sum_congr rfl fun k _ => ?_)
  · refine congrArg (· * _) ?_
    show x (colsM2re.emb (ix2 p k)) = _
    rw [emb_M2re]; rfl
  · refine congrArg (· * _) ?_
    show x (colsM2im.emb (ix2 p k)) = _
    rw [emb_M2im]; rfl

theorem piece_neg2 (p : Fin 512) (o : Fin 640) :
    k0_pay4 (k0_pay10 (View.ld x colsM2re)) (View.ld x colsM2im) (View.ld w2 allW2) (View.ld w2 allW2) (ix2 p o)
      = blockG x w0 b0 w1 w2 (colsM2im.emb (ix2 p o)) := by
  rw [pay4_apply, emb_M2im, blockG_ix2, rowOut_neg2, View.ld_unit_zero zeros2]
  unfold neg2 dotAt k0_pay10
  rw [shapeCast_self]
  refine congrArg₂ (· + ·) (Finset.sum_congr rfl fun k _ => ?_) (Finset.sum_congr rfl fun k _ => ?_)
  · refine congrArg (· * _) ?_
    show x (colsM2im.emb (ix2 p k)) = _
    rw [emb_M2im]; rfl
  · refine congrArg (· * _) ?_
    show x (colsM2re.emb (ix2 p k)) = _
    rw [emb_M2re]; rfl

/-- The output block the body leaves IS the block function: the five stores agree with it on their ranges, and the
    ranges cover the block. -/
theorem block_eq : outBlock (F := Ideal) x w0 b0 w1 w2 = blockG x w0 b0 w1 w2 := by
  funext y
  unfold outBlock
  refine View.canon_apply_of_pieces (blockG x w0 b0 w1 w2) _ ?_ y (covered _ _ _ _ _ y)
  intro pc hpc
  simp only [List.mem_cons, List.mem_nil_iff, or_false] at hpc
  rcases hpc with rfl | rfl | rfl | rfl | rfl
  · intro z
    obtain ⟨p, o, rfl⟩ : ∃ (p : Fin 512) (o : Fin 640), z = ix2 p o := ⟨z 0, z 1, eq_ix2 z⟩
    exact piece_neg2 x w0 b0 w1 w2 p o
  · intro z
    obtain ⟨p, o, rfl⟩ : ∃ (p : Fin 512) (o : Fin 640), z = ix2 p o := ⟨z 0, z 1, eq_ix2 z⟩
    exact piece_pos2 x w0 b0 w1 w2 p o
  · intro z
    obtain ⟨p, o, rfl⟩ : ∃ (p : Fin 512) (o : Fin 768), z = ix2 p o := ⟨z 0, z 1, eq_ix2 z⟩
    exact piece_neg1 x w0 b0 w1 w2 p o
  · intro z
    obtain ⟨p, o, rfl⟩ : ∃ (p : Fin 512) (o : Fin 768), z = ix2 p o := ⟨z 0, z 1, eq_ix2 z⟩
    exact piece_pos1 x w0 b0 w1 w2 p o
  · intro z
    obtain ⟨p, o, rfl⟩ : ∃ (p : Fin 512) (o : Fin 896), z = ix2 p o := ⟨z 0, z 1, eq_ix2 z⟩
    exact piece_m0 x w0 b0 w1 w2 p o

end Pieces

end Cert.KernelIdeal.Hand

end
-- ==== Proof.IdealData.lean ====
/-
  The idealized kernel's run: the proof data of its one pipeline, the body obligation at every grid point, the frame
  run and the frame.

  The grid has 98 points; point `t` works on rows 512·t ‥ 512·t + 511 of the flattened features (50000 × 3712) and of the
  result. 98 · 512 = 50176 > 50000: the last block overhangs both arrays by 176 rows. Its fetch fills only the first 336
  rows of the `x` buffer and leaves the others at contents nothing names; its write-back writes only the first 336 rows
  of the output buffer. So the obligation is stated on the rows a transfer moves: the body is handed the `x` buffer at
  its block FILLED OUT with anything (`d`), and must leave in the output buffer, on the moved rows, what the proof data
  names — `outBlock` of the block filled out with zeros. That holds whatever `d` is because an output row is a function
  of the same row of `x` only (`blockG_congr_row`), and a moved row of the filled-out buffer is the block's row.
  The weights and the bias are fetched once, whole, and stay in their buffers.
-/
import proofs.«134654_j42305427866205_2_alg».proof.Proof.IdealBlock

set_option maxRecDepth 16384

noncomputable section

namespace Cert.KernelIdeal.Hand

open Cert.KernelIdeal Cert.KernelIdeal.Gen
open Idealize.ShloMosaic Idealize.ShloMosaic.TcCoe Idealize.ShloMosaic.Tactic ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The `x` block at point `t` (its rows inside the array) filled out to 512 rows with zeros. -/
def xFull (c : Dev nD) (t : Fin cfg0.N) : S512x3712.Idx → Elt Ideal .bf16 :=
  win0_0.fill (grid0.coords t) (fun _ => (0 : EReal)) (iblk m c 0 t)

/-- The proof data of the pipeline on core `c`: the arrays as the region finds them; after the body at point `t` the `x`
    buffer at its block filled out, the weights' and the bias's buffers at their (whole) blocks, and the output buffer at
    `outBlock` of those; the invariant the scoped rest and the generator register, untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xFull m c t
    | ⟨1, _⟩ => iblk m c 1 t
    | ⟨2, _⟩ => iblk m c 2 t
    | ⟨3, _⟩ => iblk m c 3 t
    | ⟨4, _⟩ => iblk m c 4 t
    | ⟨5, _⟩ => outBlock (xFull m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = xFull m c t := by dsimp only [dats]
theorem after_w0 (c : Dev nD) (t : Fin cfg0.N) : (dats m 0 c).after 1 t = iblk m c 1 t := by dsimp only [dats]
theorem after_b0 (c : Dev nD) (t : Fin cfg0.N) : (dats m 0 c).after 2 t = iblk m c 2 t := by dsimp only [dats]
theorem after_w1 (c : Dev nD) (t : Fin cfg0.N) : (dats m 0 c).after 3 t = iblk m c 3 t := by dsimp only [dats]
theorem after_w2 (c : Dev nD) (t : Fin cfg0.N) : (dats m 0 c).after 4 t = iblk m c 4 t := by dsimp only [dats]
theorem after_out (c : Dev nD) (t : Fin cfg0.N) :
    (dats m 0 c).after 5 t = outBlock (xFull m c t) (iblk m c 1 t) (iblk m c 2 t) (iblk m c 3 t) (iblk m c 4 t) := by
  dsimp only [dats]

/-! ## What the body finds -/

/-- The `x` window is fetched at every point: its buffer holds the block on the rows the fetch fills, `d` below them. -/
theorem before_x (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq m c 0]

/-- The weights' and the bias's buffers hold their blocks at every point, fetched there or not. -/
theorem before_w0 (c : Dev nD) (t : Fin cfg0.N) (d) : (dats m 0 c).before 1 t d = iblk m c 1 t :=
  before0_1_of m (dats m 0 c) (A_eq m c 1) (after_w0 m c) t d
theorem before_b0 (c : Dev nD) (t : Fin cfg0.N) (d) : (dats m 0 c).before 2 t d = iblk m c 2 t :=
  before0_2_of m (dats m 0 c) (A_eq m c 2) (after_b0 m c) t d
theorem before_w1 (c : Dev nD) (t : Fin cfg0.N) (d) : (dats m 0 c).before 3 t d = iblk m c 3 t :=
  before0_3_of m (dats m 0 c) (A_eq m c 3) (after_w1 m c) t d
theorem before_w2 (c : Dev nD) (t : Fin cfg0.N) (d) : (dats m 0 c).before 4 t d = iblk m c 4 t :=
  before0_4_of m (dats m 0 c) (A_eq m c 4) (after_w2 m c) t d

/-- The output's buffer is written back at every point: the body finds it at contents nothing names. -/
theorem before_out (c : Dev nD) (t : Fin cfg0.N) (d) : (dats m 0 c).before 5 t d = d :=
  (dats m 0 c).before_out_reset 5 rfl t
    (if h0 : t.val = 0 then .inl h0 else .inr ⟨h0, flush0_5 _⟩) d

/-! ## Rows a transfer moves -/

/-- On an element the transfer moves, a filled-out block does not depend on the filler. -/
theorem fill_indep {α : Type} (i : grid0.Coords) (d d' : win0_0.block.Idx → α) (g : (win0_0.xblock i).Idx → α)
    (j : win0_0.block.Idx) (hm : win0_0.moved i j = true) : win0_0.fill i d g j = win0_0.fill i d' g j := by
  unfold Window.fill; rw [dif_pos hm, dif_pos hm]

/-- The two clipped windows cut alike on the rows (one index map, one block size, one array length), and neither cuts
    the columns. -/
theorem xsize_rows (i : grid0.Coords) : win0_0.xsize i 0 = win0_5.xsize i 0 := rfl
theorem xsize_cols (i : grid0.Coords) : win0_0.xsize i 1 = 3712 := rfl

theorem rows_lt (i : grid0.Coords) (j : (win0_5.xblock i).Idx) : (j 0).val < 512 :=
  Nat.lt_of_lt_of_le (j 0).isLt (win0_5.xsize_le i 0)

/-- The block function at an index the output's transfer moves, for two `x` buffers that agree on the moved rows: the
    entry is the result row of row `j 0` of the buffer, and that row is the same in both. -/
theorem cut_blockG_at (i : grid0.Coords) (X X' : Vec Ideal S512x3712 .bf16)
    (w0 : Vec Ideal S896x896 .bf16) (b0 : Vec Ideal S1x896 .f32) (w1 : Vec Ideal S768x1536 .bf16) (w2 : Vec Ideal S640x1280 .bf16)
    (j : (win0_5.xblock i).Idx)
    (h : ∀ (p : Fin 512) (k : Fin 3712), p.val < win0_5.xsize i 0 → X (ix2 p k) = X' (ix2 p k)) :
    blockG X w0 b0 w1 w2 (win0_5.xinj i j) = blockG X' w0 b0 w1 w2 (win0_5.xinj i j) := by
  unfold blockG
  refine Cert.Spec.rowOut_congr (funext fun k => ?_) _ _ _ _ _
  exact h ⟨(j 0).val, rows_lt i j⟩ k (j 0).isLt

theorem cut_blockG_congr (i : grid0.Coords) (X X' : Vec Ideal S512x3712 .bf16)
    (w0 : Vec Ideal S896x896 .bf16) (b0 : Vec Ideal S1x896 .f32) (w1 : Vec Ideal S768x1536 .bf16) (w2 : Vec Ideal S640x1280 .bf16)
    (h : ∀ (p : Fin 512) (k : Fin 3712), p.val < win0_5.xsize i 0 → X (ix2 p k) = X' (ix2 p k)) :
    win0_5.cut i (blockG X w0 b0 w1 w2) = win0_5.cut i (blockG X' w0 b0 w1 w2) :=
  funext fun j => cut_blockG_at i X X' w0 b0 w1 w2 j h

/-- On the rows the write-back moves, the output block is the same for two `x` buffers that agree on those rows. -/
theorem cut_out_congr (i : grid0.Coords) (X X' : Vec Ideal S512x3712 .bf16)
    (w0 : Vec Ideal S896x896 .bf16) (b0 : Vec Ideal S1x896 .f32) (w1 : Vec Ideal S768x1536 .bf16) (w2 : Vec Ideal S640x1280 .bf16)
    (h : ∀ (p : Fin 512) (k : Fin 3712), p.val < win0_5.xsize i 0 → X (ix2 p k) = X' (ix2 p k)) :
    win0_5.cut i (outBlock X w0 b0 w1 w2) = win0_5.cut i (outBlock X' w0 b0 w1 w2) := by
  rw [block_eq, block_eq]
  exact cut_blockG_congr i X X' w0 b0 w1 w2 h

/-- A moved row of a filled-out `x` block does not depend on the filler. -/
theorem fill_rows_indep (i : grid0.Coords) (d d' : S512x3712.Idx → Elt Ideal .bf16) (xb : (win0_0.xblock i).Idx → Elt Ideal .bf16)
    (p : Fin 512) (k : Fin 3712) (hp : p.val < win0_5.xsize i 0) :
    win0_0.fill i d xb (ix2 p k) = win0_0.fill i d' xb (ix2 p k) := by
  refine fill_indep i _ _ xb _ ((win0_0.moved_iff i _).mpr fun a => ?_)
  match a with
  | ⟨0, _⟩ => show p.val < win0_0.xsize i 0; rw [xsize_rows]; exact hp
  | ⟨1, _⟩ => show k.val < win0_0.xsize i 1; rw [xsize_cols]; exact k.isLt

/-- On the rows the write-back moves, the output block does not depend on what filled out the `x` block. -/
theorem cut_out_indep (i : grid0.Coords) (d : S512x3712.Idx → Elt Ideal .bf16) (xb : (win0_0.xblock i).Idx → Elt Ideal .bf16)
    (w0 : Vec Ideal S896x896 .bf16) (b0 : Vec Ideal S1x896 .f32) (w1 : Vec Ideal S768x1536 .bf16) (w2 : Vec Ideal S640x1280 .bf16) :
    win0_5.cut i (outBlock (win0_0.fill i d xb) w0 b0 w1 w2)
      = win0_5.cut i (outBlock (win0_0.fill i (fun _ => (0 : EReal)) xb) w0 b0 w1 w2) :=
  cut_out_congr i _ _ w0 b0 w1 w2 (fun p k hp => fill_rows_indep i d _ xb p k hp)

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two clipped windows' buffers stated on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_x, before_w0, before_b0, before_w1, before_w2, before_out]
  rw [show (dats m 0 c).Φ t.succ = (dats m 0 c).Φ t.castSucc from rfl,
    show (dats m 0 c).owesAt () t.succ = (dats m 0 c).owesAt () t.castSucc from rfl,
    after_x, after_w0, after_b0, after_w1, after_w2, after_out]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  -- the `x` buffer still holds its block filled out with `d0`: on the moved rows the block, as `xFull` is
  have hx : win0_0.fill (grid0.coords t) d0 (win0_0.cut (grid0.coords t) (xFull m c t)) = win0_0.fill (grid0.coords t) d0 (iblk m c 0 t) := by
    unfold xFull; rw [win0_0.cut_fill]
  -- the output buffer holds `outBlock` of that: on the moved rows what `outBlock` of the zero-filled block holds
  have ho : win0_5.fill (grid0.coords t)
        (outBlock (win0_0.fill (grid0.coords t) d0 (iblk m c 0 t)) (iblk m c 1 t) (iblk m c 2 t) (iblk m c 3 t) (iblk m c 4 t))
        (win0_5.cut (grid0.coords t) (outBlock (xFull m c t) (iblk m c 1 t) (iblk m c 2 t) (iblk m c 3 t) (iblk m c 4 t)))
      = outBlock (win0_0.fill (grid0.coords t) d0 (iblk m c 0 t)) (iblk m c 1 t) (iblk m c 2 t) (iblk m c 3 t) (iblk m c 4 t) :=
    win0_5.fill_congr_cut (grid0.coords t) (cut_out_indep (grid0.coords t) d0 (iblk m c 0 t) _ _ _ _)
  isplitl [H0]
  · iexists d0; rw [hx]; iexact H0
  isplitl [H1]; · iexact H1
  isplitl [H2]; · iexact H2
  isplitl [H3]; · iexact H3
  isplitl [H4]; · iexact H4
  iexists _; rw [ho]; iexact H5

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the idealized program terminates without a fault; at the end every array of the
    pipeline holds what the proof data computes and every other buffer what the host lines after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized program runs and leaves its five argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.IdealFlat.lean ====
/-
  The flattened result as one function of the arrays the kernel's windows stage: row `e`, column `q` is column `q` of the
  specification's result row of row `e` of the flattened features, the staged weights read as (contracted position,
  output column) and the staged bias as a row.
-/
import proofs.«134654_j42305427866205_2_alg».proof.Proof.IdealBlock

noncomputable section

namespace Cert.KernelIdeal.Hand

open Cert.KernelIdeal Cert.KernelIdeal.Gen
open Idealize.ShloMosaic Idealize.ShloMosaic.TcCoe ValueIdx
open Cert.Spec

/-- Row `e`, column `q` of the flattened result: the result row of row `e` of the flattened features. -/
def flatG (xf : Vec Ideal S50000x3712 .bf16) (w0t : Vec Ideal S896x896 .bf16) (b0r : Vec Ideal S1x896 .f32)
    (w1t : Vec Ideal S768x1536 .bf16) (w2t : Vec Ideal S640x1280 .bf16) : Vec Ideal S50000x3712 .f32 :=
  fun i => rowOut (fun k => xf (ix2 (⟨(i 0).val, (i 0).isLt⟩ : Fin 50000) k)) (wAt w0t) (bAt b0r) (wAt w1t) (wAt w2t)
    ⟨(i 1).val, (i 1).isLt⟩

theorem flatG_ix2 (xf : Vec Ideal S50000x3712 .bf16) (w0t : Vec Ideal S896x896 .bf16) (b0r : Vec Ideal S1x896 .f32)
    (w1t : Vec Ideal S768x1536 .bf16) (w2t : Vec Ideal S640x1280 .bf16) (e : Fin 50000) (q : Fin 3712) :
    flatG xf w0t b0r w1t w2t (ix2 e q) = rowOut (fun k => xf (ix2 e k)) (wAt w0t) (bAt b0r) (wAt w1t) (wAt w2t) q := rfl

end Cert.KernelIdeal.Hand

end
-- ==== Proof.IdealValue.lean ====
/-
  The idealized kernel's result, as one function of its arguments.

  Point `t` of the grid writes back rows 512·t ‥ of the flattened result (the last point only its first 336 rows), and
  what it writes there is the specification's result row of the same row of the flattened features (`flushed_eq`); the
  98 blocks cover all 50000 rows (`cover_out`); so the flattened result array ends holding, at row `e`, the result row of
  row `e` of the staged features (`final_out`). The host lines before the region stage the features flattened to
  50000 × 3712 and the weights transposed (changes of float format are the identity on the extended reals), and the line
  after it folds the rows of 3712 back into 29 components of 128: the program's result is `Cert.Spec.G` of its five
  arguments (`result_eq_G`).
-/
import proofs.«134654_j42305427866205_2_alg».proof.Proof.IdealData
import proofs.«134654_j42305427866205_2_alg».proof.Proof.IdealFlat
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic ValueIdx
open Idealize.SL Idealize.SL.Sem Idealize.ShloMosaic.StableHlo
open Idealize.ShloMosaic.Pipeline (Dat Cfg Window)
open Cert.Spec

variable (m : (ℓ : Loc nD τ sig) → Buf (Elt Ideal) ℓ) (ρ : Dev nD → PrngReg)

/-! ## The windows over the grid -/

/-- Decided over the 98 points: the two row-blocked windows sit at block row `t`, block column 0; the output's transfer
    moves 512 rows, at the last point 336; it never cuts the columns. -/
theorem grid_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_5.xsize (grid0.coords t) (0 : Fin 2) = (if t.val = 97 then 336 else 512)
    ∧ win0_5.xsize (grid0.coords t) (1 : Fin 2) = 3712 :=
  (by decide +kernel : ∀ t : Fin grid0.N, _)

/-- The weights' and the bias's windows hold their whole arrays at every point. -/
theorem iblk_w0 (c : Dev nD) (t : Fin cfg0.N) : iblk m c 1 t = V m c main_v3 := by
  funext y
  show V m c main_v3 (((cfg0.win 1).blk t).view.emb y) = V m c main_v3 y
  refine congrArg (V m c main_v3) (funext fun a => Fin.ext ?_)
  match a with
  | ⟨0, _⟩ => show win0_1.index t (0 : Fin 2) * 896 + 1 * (y 0).val = (y 0).val; rw [show win0_1.index t (0 : Fin 2) = 0 from rfl]; omega
  | ⟨1, _⟩ => show win0_1.index t (1 : Fin 2) * 896 + 1 * (y 1).val = (y 1).val; rw [show win0_1.index t (1 : Fin 2) = 0 from rfl]; omega
theorem iblk_b0 (c : Dev nD) (t : Fin cfg0.N) : iblk m c 2 t = V m c main_v4 := by
  funext y
  show V m c main_v4 (((cfg0.win 2).blk t).view.emb y) = V m c main_v4 y
  refine congrArg (V m c main_v4) (funext fun a => Fin.ext ?_)
  match a with
  | ⟨0, _⟩ => show win0_2.index t (0 : Fin 2) * 1 + 1 * (y 0).val = (y 0).val; rw [show win0_2.index t (0 : Fin 2) = 0 from rfl]; omega
  | ⟨1, _⟩ => show win0_2.index t (1 : Fin 2) * 896 + 1 * (y 1).val = (y 1).val; rw [show win0_2.index t (1 : Fin 2) = 0 from rfl]; omega
theorem iblk_w1 (c : Dev nD) (t : Fin cfg0.N) : iblk m c 3 t = V m c main_v6 := by
  funext y
  show V m c main_v6 (((cfg0.win 3).blk t).view.emb y) = V m c main_v6 y
  refine congrArg (V m c main_v6) (funext fun a => Fin.ext ?_)
  match a with
  | ⟨0, _⟩ => show win0_3.index t (0 : Fin 2) * 768 + 1 * (y 0).val = (y 0).val; rw [show win0_3.index t (0 : Fin 2) = 0 from rfl]; omega
  | ⟨1, _⟩ => show win0_3.index t (1 : Fin 2) * 1536 + 1 * (y 1).val = (y 1).val; rw [show win0_3.index t (1 : Fin 2) = 0 from rfl]; omega
theorem iblk_w2 (c : Dev nD) (t : Fin cfg0.N) : iblk m c 4 t = V m c main_v8 := by
  funext y
  show V m c main_v8 (((cfg0.win 4).blk t).view.emb y) = V m c main_v8 y
  refine congrArg (V m c main_v8) (funext fun a => Fin.ext ?_)
  match a with
  | ⟨0, _⟩ => show win0_4.index t (0 : Fin 2) * 640 + 1 * (y 0).val = (y 0).val; rw [show win0_4.index t (0 : Fin 2) = 0 from rfl]; omega
  | ⟨1, _⟩ => show win0_4.index t (1 : Fin 2) * 1280 + 1 * (y 1).val = (y 1).val; rw [show win0_4.index t (1 : Fin 2) = 0 from rfl]; omega

/-- A row of the filled-out `x` block that the transfer moves is the array's row 512·t + p. -/
theorem xFull_row (c : Dev nD) (t : Fin cfg0.N) (p : Fin 512) (k : Fin 3712)
    (hp : p.val < win0_5.xsize (grid0.coords t) (0 : Fin 2)) (hrow : t.val * 512 + p.val < 50000) :
    xFull m c t (ix2 p k) = V m c main_v1 (ix2 (⟨t.val * 512 + p.val, hrow⟩ : Fin 50000) k) := by
  obtain ⟨e0, e1, -, -, -, -⟩ := grid_facts t
  have hm : win0_0.moved (grid0.coords t) (ix2 p k) = true := (win0_0.moved_iff _ _).mpr fun a => by
    match a with
    | ⟨0, _⟩ => show p.val < win0_0.xsize (grid0.coords t) 0; rw [xsize_rows]; exact hp
    | ⟨1, _⟩ => show k.val < win0_0.xsize (grid0.coords t) 1; rw [xsize_cols]; exact k.isLt
  unfold xFull Window.fill
  rw [dif_pos hm]
  show V m c main_v1 (((cfg0.win 0).blk t).view.emb _) = V m c main_v1 _
  refine congrArg (V m c main_v1) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 3712 + 1 * k.val = k.val; rw [e1]; omega

/-! ## What a point writes back, the cover, the final array -/

/-- Two result rows with the same feature row, read at the same column. -/
theorem rowOut_congr2 {xr xr' : Fin 3712 → EReal} (hx : xr = xr') {q q' : Fin 3712} (hq : q = q')
    (w0 : Fin 896 → Fin 896 → EReal) (b : Fin 896 → EReal) (w1 : Fin 768 → Fin 1536 → EReal) (w2 : Fin 640 → Fin 1280 → EReal) :
    rowOut xr w0 b w1 w2 q = rowOut xr' w0 b w1 w2 q' := by subst hx; subst hq; rfl

/-- WHAT POINT `t` WRITES BACK is block `t` of `flatG` of the staged arrays: on a row the transfer moves, the filled-out
    `x` block's row is the array's row 512·t + (row in the block), and the column is the block's own. -/
theorem flushed_eq (c : Dev nD) (t : Fin cfg0.N) :
    (dats m 0 c).flushed 5 t = ((cfg0.win 5).blk t).view.read (Elt Ideal)
      (flatG (V m c main_v1) (V m c main_v3) (V m c main_v4) (V m c main_v6) (V m c main_v8)) := by
  show (cfg0.win 5).cut (grid0.coords t) ((dats m 0 c).after 5 t) = _
  rw [after_out, block_eq, iblk_w0, iblk_b0, iblk_w1, iblk_w2]
  obtain ⟨-, -, e2, e3, e4, -⟩ := grid_facts t
  funext j
  have ht : t.val < 98 := by have h98 := t.isLt; have hN : cfg0.N = 98 := N_0; omega
  have hj0 : (j 0).val < win0_5.xsize (grid0.coords t) (0 : Fin 2) := (j 0).isLt
  have hp : (j 0).val < 512 := rows_lt _ j
  have hrow : t.val * 512 + (j 0).val < 50000 := by rw [e4] at hj0; split_ifs at hj0 <;> omega
  show blockG (xFull m c t) (V m c main_v3) (V m c main_v4) (V m c main_v6) (V m c main_v8) (win0_5.xinj (grid0.coords t) j)
    = flatG (V m c main_v1) (V m c main_v3) (V m c main_v4) (V m c main_v6) (V m c main_v8) (((cfg0.win 5).blk t).view.emb j)
  unfold blockG flatG
  refine rowOut_congr2 (funext fun k => ?_) (Fin.ext ?_) _ _ _ _
  · refine (xFull_row m c t ⟨(j 0).val, hp⟩ k hj0 hrow).trans ?_
    refine congrArg (V m c main_v1) (congrArg (fun e : Fin 50000 => ix2 e k) (Fin.ext ?_))
    show t.val * 512 + (j 0).val = win0_5.index t (0 : Fin 2) * 512 + 1 * (j 0).val
    rw [e2]; omega
  · show (j 1).val = win0_5.index t (1 : Fin 2) * 3712 + 1 * (j 1).val
    rw [e3]; omega

/-- An index of the flattened result is in point `t`'s block iff each coordinate is in the range the block's transfer moves. -/
theorem mem_blk_out (t : Fin cfg0.N) (i : S50000x3712.Idx) :
    i ∈ ((cfg0.win 5).blk t).view.set ↔ ∀ a : Fin 2, win0_5.index t a * S512x3712.size a ≤ (i a).val
      ∧ (i a).val < win0_5.index t a * S512x3712.size a + win0_5.xsize (grid0.coords t) a := by
  show i ∈ ((View.whole main_v9).slice (win0_5.rect t)).set ↔ _
  rw [View.set_slice_whole, Rect.mem_set_unit]
  exact Iff.rfl

/-- Row `r` is written back by point `r / 512`: 97 · 512 + 336 = 50000. -/
theorem cover_out (i : S50000x3712.Idx) : ∃ t : Fin cfg0.N, (cfg0.win 5).flush t = true ∧ i ∈ ((cfg0.win 5).blk t).view.set := by
  have h0 : (i 0).val < 50000 := (i 0).isLt
  have h1 : (i 1).val < 3712 := (i 1).isLt
  obtain ⟨t, ht⟩ : ∃ t : Fin cfg0.N, t.val = (i 0).val / 512 :=
    ⟨⟨(i 0).val / 512, by rw [show cfg0.N = 98 from N_0]; omega⟩, rfl⟩
  obtain ⟨-, -, e2, e3, e4, e5⟩ := grid_facts t
  refine ⟨t, flush0_5 t, (mem_blk_out t i).mpr fun a => ?_⟩
  match a with
  | ⟨0, _⟩ =>
    show win0_5.index t (0 : Fin 2) * 512 ≤ (i 0).val ∧ (i 0).val < win0_5.index t (0 : Fin 2) * 512 + win0_5.xsize (grid0.coords t) (0 : Fin 2)
    rw [e2, e4, ht]; split_ifs <;> omega
  | ⟨1, _⟩ =>
    show win0_5.index t (1 : Fin 2) * 3712 ≤ (i 1).val ∧ (i 1).val < win0_5.index t (1 : Fin 2) * 3712 + win0_5.xsize (grid0.coords t) (1 : Fin 2)
    rw [e3, e5]; omega

/-- THE FLATTENED RESULT after the run. -/
theorem final_out (c : Dev nD) : (dats m 0 c).arrAt 5 cfg0.N
    = flatG (V m c main_v1) (V m c main_v3) (V m c main_v4) (V m c main_v6) (V m c main_v8) :=
  (dats m 0 c).arrAt_eq_of_cover 5 _ (fun t _ => flushed_eq m c t) cover_out

/-! ## The line after the region, and the program's result -/

/-- The host line after the region folds the flattened result into 29 components of 128. -/
theorem tail_result (c : Dev nD) :
    Pipeline.afterTail₀ cfgs (dats m) 0 (V0 m) [hostOps1] c main_v10
      = shapeCast S50000x29x128 ((dats m 0 c).arrAt 5 cfg0.N) shapeCasts_S50000x3712_S50000x29x128 := by
  unfold Pipeline.afterTail₀
  show StableHlo.after hostOps1 _ (Proc.devRef .tc main_v10) = _
  after_results
  have hw := Pipeline.withArrays_arr spec0 launch0.win.arr_inj c (V0 m c) (fun w => (dats m 0 c).arrAt w cfg0.N) 5
  funext i
  show shapeCast S50000x29x128 (Pipeline.withArrays spec0 c (V0 m c) (fun w => (dats m 0 c).arrAt w cfg0.N)
      (Proc.devRef .tc (Pipeline.arrRef spec0 5))) shapeCasts_S50000x3712_S50000x29x128 i = _
  rw [hw]

end Cert.KernelIdeal.Hand

end
-- ==== Proof.IdealHost.lean ====
/-
  The host lines around the idealized kernel's pipeline, read at an index.

  Before the pipeline the program flattens the features (50000 × 29 × 128 to 50000 × 3712), transposes the three weight
  matrices, makes the bias a row (896 to 1 × 896), and converts to the 16-bit format, which on the extended reals is the
  identity. So, as the pipeline finds them: row `e`, column `k` of the flattened features is component `k / 128`, channel
  `k % 128` of edge `e` — the edge's feature row of the specification —; entry (k, o) of a staged weight matrix is entry
  (o, k) of the argument; entry (0, o) of the staged bias is entry `o` of the argument. After the pipeline the program folds
  the 50000 × 3712 result back to 50000 × 29 × 128: component `l`, channel `ch` of edge `e` is column `l * 128 + ch` of row
  `e` (both are position `(29 e + l) 128 + ch = 3712 e + (128 l + ch)` in row-major order). Hence the folded flattened result,
  over the staged arrays, is the specification over the argument arrays.
-/
import proofs.«134654_j42305427866205_2_alg».proof.Proof.IdealFlat
import proofs.«134654_j42305427866205_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe ValueIdx
open Cert.Spec

variable (m : (ℓ : Loc nD τ sig) → Buf (Elt Ideal) ℓ) (c : Dev nD)

/-! ## What the pipeline's input arrays hold when it is entered -/

/-- The features, flattened and converted. -/
theorem V_x : (V m c main_v1 : Vec Ideal S50000x3712 .bf16)
    = truncf (F := Ideal) .bf16 (shapeCast S50000x3712 (m ((c : Thread nD τ).loc main_arg0)) shapeCasts_S50000x29x128_S50000x3712) bitsLt_bf16_f32 := by
  show StableHlo.after hostOps0 (fun b => m (c, b)) (Proc.devRef .tc main_v1) = _
  after_results
  all_goals rfl

/-- The order-0 weights, transposed and converted. -/
theorem V_w0 : (V m c main_v3 : Vec Ideal S896x896 .bf16)
    = truncf (F := Ideal) .bf16 (transpose S896x896 [1, 0] (m ((c : Thread nD τ).loc main_arg1)) transposes_S896x896_S896x896_1_0) bitsLt_bf16_f32 := by
  show StableHlo.after hostOps0 (fun b => m (c, b)) (Proc.devRef .tc main_v3) = _
  after_results
  all_goals rfl

/-- The bias as a row. -/
theorem V_b0 : (V m c main_v4 : Vec Ideal S1x896 .f32)
    = shapeCast S1x896 (m ((c : Thread nD τ).loc main_arg2)) shapeCasts_S896_S1x896 := by
  show StableHlo.after hostOps0 (fun b => m (c, b)) (Proc.devRef .tc main_v4) = _
  after_results
  all_goals rfl

/-- The order-1 weights, transposed and converted. -/
theorem V_w1 : (V m c main_v6 : Vec Ideal S768x1536 .bf16)
    = truncf (F := Ideal) .bf16 (transpose S768x1536 [1, 0] (m ((c : Thread nD τ).loc main_arg3)) transposes_S1536x768_S768x1536_1_0) bitsLt_bf16_f32 := by
  show StableHlo.after hostOps0 (fun b => m (c, b)) (Proc.devRef .tc main_v6) = _
  after_results
  all_goals rfl

/-- The order-2 weights, transposed and converted. -/
theorem V_w2 : (V m c main_v8 : Vec Ideal S640x1280 .bf16)
    = truncf (F := Ideal) .bf16 (transpose S640x1280 [1, 0] (m ((c : Thread nD τ).loc main_arg4)) transposes_S1280x640_S640x1280_1_0) bitsLt_bf16_f32 := by
  show StableHlo.after hostOps0 (fun b => m (c, b)) (Proc.devRef .tc main_v8) = _
  after_results
  all_goals rfl

/-! ## The layout operations read at an index -/

/-- Row `e`, column `k` of the flattened features is component `k / 128`, channel `k % 128` of edge `e`: row-major position
    `(29 e + k / 128) 128 + k % 128 = 3712 e + k`. -/
theorem flat_cast_at (x : S50000x29x128.Idx → EReal) (e : Fin 50000) (k : Fin 3712) :
    shapeCast S50000x3712 x shapeCasts_S50000x29x128_S50000x3712 (ix2 e k) = flat x e k := by
  have hk := k.isLt
  unfold flat
  refine shapeCast_apply x shapeCasts_S50000x29x128_S50000x3712 (ix2 e k)
    (ix3 e ⟨k.val / 128, by omega⟩ ⟨k.val % 128, Nat.mod_lt _ (by norm_num)⟩) ?_
  rewrite [Shape.rowMajor_val_three, Shape.rowMajor_val_two]
  show (e.val * 29 + k.val / 128) * 128 + k.val % 128 = e.val * 3712 + k.val
  omega

/-- Entry (0, o) of the bias row is entry `o` of the bias. -/
theorem bias_cast_at (b : S896.Idx → EReal) (o : Fin 896) :
    shapeCast S1x896 b shapeCasts_S896_S1x896 (ix2 (0 : Fin 1) o) = b (ix1 o) := by
  refine shapeCast_apply b shapeCasts_S896_S1x896 (ix2 (0 : Fin 1) o) (ix1 o) ?_
  rewrite [Shape.rowMajor_val_one, Shape.rowMajor_val_two]
  show o.val = 0 * 896 + o.val
  omega

/-- Entry (k, o) of a transposed matrix is entry (o, k) of the matrix. -/
theorem transpose_w0_at (W : S896x896.Idx → EReal) (k o : Fin 896) :
    transpose S896x896 [1, 0] W transposes_S896x896_S896x896_1_0 (ix2 k o) = W (ix2 o k) :=
  transpose_apply [1, 0] W transposes_S896x896_S896x896_1_0 (ix2 k o) (ix2 o k) (fun b => match b with
    | ⟨0, _⟩ => rfl
    | ⟨1, _⟩ => rfl)
theorem transpose_w1_at (W : S1536x768.Idx → EReal) (k : Fin 768) (o : Fin 1536) :
    transpose S768x1536 [1, 0] W transposes_S1536x768_S768x1536_1_0 (ix2 k o) = W (ix2 o k) :=
  transpose_apply [1, 0] W transposes_S1536x768_S768x1536_1_0 (ix2 k o) (ix2 o k) (fun b => match b with
    | ⟨0, _⟩ => rfl
    | ⟨1, _⟩ => rfl)
theorem transpose_w2_at (W : S1280x640.Idx → EReal) (k : Fin 640) (o : Fin 1280) :
    transpose S640x1280 [1, 0] W transposes_S1280x640_S640x1280_1_0 (ix2 k o) = W (ix2 o k) :=
  transpose_apply [1, 0] W transposes_S1280x640_S640x1280_1_0 (ix2 k o) (ix2 o k) (fun b => match b with
    | ⟨0, _⟩ => rfl
    | ⟨1, _⟩ => rfl)

/-! ## The fold -/

/-- The result row is a function of its six arguments. -/
theorem rowOut_congr5 {xr xr' : Fin 3712 → EReal} {w0 w0' : Fin 896 → Fin 896 → EReal} {b b' : Fin 896 → EReal}
    {w1 w1' : Fin 768 → Fin 1536 → EReal} {w2 w2' : Fin 640 → Fin 1280 → EReal} {q q' : Fin 3712}
    (hx : xr = xr') (h0 : w0 = w0') (hb : b = b') (h1 : w1 = w1') (h2 : w2 = w2') (hq : q = q') :
    rowOut xr w0 b w1 w2 q = rowOut xr' w0' b' w1' w2' q' := by
  subst hx h0 hb h1 h2 hq; rfl

/-- The specification at edge `e`, component `l`, channel `ch`: column `l * 128 + ch` of the edge's result row. -/
theorem G_at (x : S50000x29x128.Idx → EReal) (W0 : S896x896.Idx → EReal) (b0 : S896.Idx → EReal)
    (W1 : S1536x768.Idx → EReal) (W2 : S1280x640.Idx → EReal) (e : Fin 50000) (l : Fin 29) (ch : Fin 128) :
    G x W0 b0 W1 W2 (ix3 e l ch)
      = rowOut (flat x e) (fun k o => W0 (ix2 o k)) (fun o => b0 (ix1 o)) (fun k o => W1 (ix2 o k)) (fun k o => W2 (ix2 o k))
          ⟨l.val * 128 + ch.val, by have := l.isLt; have := ch.isLt; omega⟩ := rfl

/-- The folded flattened result over arrays that are the flattened features, the transposed weights and the bias row of
    `x`, `W0`, `b0`, `W1`, `W2` is the specification over these. -/
theorem fold_flatG_eq_G (x : S50000x29x128.Idx → EReal) (W0 : S896x896.Idx → EReal) (b0 : S896.Idx → EReal)
    (W1 : S1536x768.Idx → EReal) (W2 : S1280x640.Idx → EReal)
    (xf : Vec Ideal S50000x3712 .bf16) (w0t : Vec Ideal S896x896 .bf16) (b0r : Vec Ideal S1x896 .f32)
    (w1t : Vec Ideal S768x1536 .bf16) (w2t : Vec Ideal S640x1280 .bf16)
    (hx : xf = truncf (F := Ideal) .bf16 (shapeCast S50000x3712 x shapeCasts_S50000x29x128_S50000x3712) bitsLt_bf16_f32)
    (h0 : w0t = truncf (F := Ideal) .bf16 (transpose S896x896 [1, 0] W0 transposes_S896x896_S896x896_1_0) bitsLt_bf16_f32)
    (hb : b0r = shapeCast S1x896 b0 shapeCasts_S896_S1x896)
    (h1 : w1t = truncf (F := Ideal) .bf16 (transpose S768x1536 [1, 0] W1 transposes_S1536x768_S768x1536_1_0) bitsLt_bf16_f32)
    (h2 : w2t = truncf (F := Ideal) .bf16 (transpose S640x1280 [1, 0] W2 transposes_S1280x640_S640x1280_1_0) bitsLt_bf16_f32) :
    shapeCast S50000x29x128 (flatG xf w0t b0r w1t w2t) shapeCasts_S50000x3712_S50000x29x128 = G x W0 b0 W1 W2 := by
  subst hx h0 hb h1 h2
  funext i
  obtain ⟨e, l, ch, rfl⟩ : ∃ (e : Fin 50000) (l : Fin 29) (ch : Fin 128), i = ix3 e l ch := ⟨i 0, i 1, i 2, eq_ix3 i⟩
  have hl := l.isLt; have hc := ch.isLt
  rw [shapeCast_apply _ shapeCasts_S50000x3712_S50000x29x128 (ix3 e l ch)
      (ix2 e (⟨l.val * 128 + ch.val, by omega⟩ : Fin 3712)) (by
        rewrite [Shape.rowMajor_val_two, Shape.rowMajor_val_three]
        show e.val * 3712 + (l.val * 128 + ch.val) = (e.val * 29 + l.val) * 128 + ch.val
        omega),
    flatG_ix2, G_at]
  refine rowOut_congr5 (funext fun k => ?_) (funext fun k => funext fun o => ?_) (funext fun o => ?_)
    (funext fun k => funext fun o => ?_) (funext fun k => funext fun o => ?_) rfl
  · exact flat_cast_at x e k
  · exact transpose_w0_at W0 k o
  · exact bias_cast_at b0 o
  · exact transpose_w1_at W1 k o
  · exact transpose_w2_at W2 k o

/-- The fold of the flattened result over the arrays the pipeline stages is the specification over the argument arrays. -/
theorem folded_flatG_eq_G (m : (ℓ : Loc nD τ sig) → Buf (Elt Ideal) ℓ) (c : Dev nD) :
    shapeCast S50000x29x128
        (flatG (V m c main_v1) (V m c main_v3) (V m c main_v4) (V m c main_v6) (V m c main_v8))
        shapeCasts_S50000x3712_S50000x29x128
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) :=
  fold_flatG_eq_G _ _ _ _ _ _ _ _ _ _ (V_x m c) (V_w0 m c) (V_b0 m c) (V_w1 m c) (V_w2 m c)

end Cert.KernelIdeal.Hand

end
-- ==== Proof.IdealResult.lean ====
/-
  The idealized kernel's run with its result named: every weakly fair execution terminates without a fault, the result
  buffer ends holding `Cert.Spec.G` of the five arguments, and the arguments end as they were.

  The frame run leaves every buffer that is no array of the pipeline at what the host line after the region computes;
  for the result buffer that is the flattened result array folded into 29 components of 128 (`tail_result`), the
  flattened result is `flatG` of the staged arrays (`final_out`), and folded that is `G` of the arguments
  (`folded_flatG_eq_G`).
-/
import proofs.«134654_j42305427866205_2_alg».proof.Proof.IdealValue
import proofs.«134654_j42305427866205_2_alg».proof.Proof.IdealHost

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result buffer after the run. -/
theorem result_eq_G (c : Dev nD) :
    Pipeline.afterTail₀ cfgs (dats m) 0 (V0 m) [hostOps1] c main_v10
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_result, final_out]
  exact folded_flatG_eq_G m c

theorem run_value : θ_run defs (onTc (τ := τ) (main (F := Ideal))) ⟨m, fun _ => 0, ρ⟩ (fun r => ∀ c : Dev nD,
      r.2.mem ((c.tc : Thread nD τ).loc main_v10)
        = Cert.Spec.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (result_eq_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefIsSpec.lean ====
/-
  The reference program computes the specification.

  The program slices the 29 components of an edge into the stretches 0–6, 7–18 and 19–28, flattens each stretch (two halves for
  the last two), multiplies by the weights, recombines the halves of orders 1 and 2 as real·real − imaginary·imaginary and
  imaginary·real + real·imaginary, folds every result back into components of 128 channels and lays the five pieces side by side.
  Every step moves a number without changing it, or is the sum of products, the sum or the difference that the specification
  writes at the same place; so the proof is index arithmetic only. Reading the result at edge `e`, component `l`, channel `ch`:
  the piece that holds `l` is read at `l` less the components before it, the fold sends (component, channel) to column
  `component * 128 + channel` of the piece's row, and number `k` of a flattened stretch that starts at component `c₀` is component
  `c₀ + k / 128`, channel `k % 128` of the edge, which is column `128 c₀ + k` of the edge's row of 3712.
-/
import proofs.«134654_j42305427866205_2_alg».proof.Proof.Gen.ReferenceIdeal.Read
import proofs.«134654_j42305427866205_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec

/-- Opens the program's index maps and the index constructors, leaving a statement about natural numbers. -/
local macro "idx_open" : tactic =>
  `(tactic| dsimp only [idx_main_v0, idx_main_v1, idx_main_v2, idx_main_v4, idx_main_v5, idx_main_v7, idx_main_v8, idx_main_v9, idx_main_v11, idx_main_v12, idx_main_v13, idx_main_v14, idx_main_v15, idx_main_v16, idx_main_v18, idx_main_v19, idx_main_v20, idx_main_v21, idx_main_v23, idx_main_v24, idx_main_v25, idx_main_v26, idx_main_v28, idx_main_v29, idx_main_v30, idx_main_v31, idx_main_v32, idx_main_v33, idx_main_v35, idx_main_v36, idx_main_v37, idx_main_v38, idx_main_v40, idx_main_v41, lidx_main_v3, ridx_main_v3, lidx_main_v10, ridx_main_v10, lidx_main_v27, ridx_main_v27, ix1, ix2, ix3])

/-! ## Order m = 0: 7 components, 896 numbers, weights 896 × 896 and a bias -/

/-- A component-and-channel index of the 7 × 128 piece is column `l * 128 + ch` of its 896-wide row. -/
theorem fold0_idx (e : Fin 50000) (l : Fin 7) (ch : Fin 128) :
    idx_main_v7 (ix3 e l ch) = ix2 e (⟨l.val * 128 + ch.val, by have := l.isLt; have := ch.isLt; omega⟩ : Fin 896) := by
  have hl := l.isLt; have hc := ch.isLt; have he := e.isLt
  funext a
  match a with
  | ⟨0, _⟩ => exact Fin.ext (by idx_open <;> omega)
  | ⟨1, _⟩ => exact Fin.ext (by idx_open <;> omega)

/-- The order-0 piece: the dense layer with bias over the first 896 numbers of the edge's row. -/
theorem m0_at (x0 : (⟨S50000x29x128, .f32⟩ : BufTy).Contents (Elt Ideal)) (x1 : (⟨S896x896, .f32⟩ : BufTy).Contents (Elt Ideal))
    (x2 : (⟨S896, .f32⟩ : BufTy).Contents (Elt Ideal)) (e : Fin 50000) (l : Fin 7) (ch : Fin 128) :
    val_main_v7 (F := Ideal) x0 x1 x2 (ix3 e l ch)
      = m0 (flat x0 e) (fun k o => x1 (ix2 o k)) (fun o => x2 (ix1 o))
          ⟨l.val * 128 + ch.val, by have := l.isLt; have := ch.isLt; omega⟩ := by
  have hl := l.isLt; have hc := ch.isLt; have he := e.isLt
  rw [val_main_v7_apply, fold0_idx, val_main_v6_apply, Ideal.addf_def, val_main_v3_apply, val_main_v5_apply, val_main_v4_apply]
  unfold m0 flat
  refine congrArg₂ (· + ·) (Finset.sum_congr rfl fun k _ => ?_) (congrArg x2 ?_)
  · have hk := k.isLt
    rw [val_main_v1_apply, val_main_v0_apply, val_main_v2_apply]
    refine congrArg₂ (· * ·) (congrArg x0 ?_) (congrArg x1 ?_)
    · funext a
      match a with
      | ⟨0, _⟩ => exact Fin.ext (by idx_open <;> omega)
      | ⟨1, _⟩ => exact Fin.ext (by idx_open <;> omega)
      | ⟨2, _⟩ => exact Fin.ext (by idx_open <;> omega)
    · funext a
      match a with
      | ⟨0, _⟩ => rfl
      | ⟨1, _⟩ => rfl
  · funext a
    match a with
    | ⟨0, _⟩ => rfl

/-! ## Order m = 1: 6 + 6 components, 768 numbers per half, weights 1536 × 768 -/

/-- The product of half `t` (0 real, 1 imaginary) of the order-1 stretch with row `c` of the weights: the contraction runs
    over the 768 numbers of the half, number `k` being component `7 + 6 t + k / 128`, channel `k % 128` of the edge, which is
    column `896 + 768 t + k` of the edge's row. -/
theorem dot1_at (x0 : (⟨S50000x29x128, .f32⟩ : BufTy).Contents (Elt Ideal)) (x3 : (⟨S1536x768, .f32⟩ : BufTy).Contents (Elt Ideal)) (e : Fin 50000) (t : Fin 2) (base : Nat) (hb : base + 768 ≤ 3712)
    (hbase : base = 896 + t.val * 768) (c : Fin 1536) :
    dotAt (flat x0 e) base 768 1536 hb (fun k o => x3 (ix2 o k)) c = val_main_v10 (F := Ideal) x0 x3 (ix3 e t c) := by
  have ht := t.isLt
  rw [val_main_v10_apply]
  unfold dotAt flat
  refine Finset.sum_congr rfl fun k _ => ?_
  have hk := k.isLt
  rw [val_main_v9_apply, val_main_v8_apply]
  refine congrArg₂ (· * ·) (congrArg x0 ?_) (congrArg x3 ?_)
  · funext a
    match a with
    | ⟨0, _⟩ => exact Fin.ext (by idx_open <;> omega)
    | ⟨1, _⟩ => exact Fin.ext (by idx_open <;> omega)
    | ⟨2, _⟩ => exact Fin.ext (by idx_open <;> omega)
  · funext a
    match a with
    | ⟨0, _⟩ => rfl
    | ⟨1, _⟩ => rfl

/-- Column `o` of the real half's first 768 outputs. -/
theorem rr1_at (x0 : (⟨S50000x29x128, .f32⟩ : BufTy).Contents (Elt Ideal)) (x3 : (⟨S1536x768, .f32⟩ : BufTy).Contents (Elt Ideal)) (e : Fin 50000) (o : Fin 768) :
    val_main_v14 (F := Ideal) x0 x3 (ix2 e o)
      = val_main_v10 (F := Ideal) x0 x3 (ix3 e ⟨0, by decide⟩ ⟨o.val, by have := o.isLt; omega⟩) := by
  have ho := o.isLt; have he := e.isLt
  rw [val_main_v14_apply, val_main_v13_apply, val_main_v11_apply]
  refine congrArg (val_main_v10 (F := Ideal) x0 x3) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the imaginary half's last 768 outputs. -/
theorem ii1_at (x0 : (⟨S50000x29x128, .f32⟩ : BufTy).Contents (Elt Ideal)) (x3 : (⟨S1536x768, .f32⟩ : BufTy).Contents (Elt Ideal)) (e : Fin 50000) (o : Fin 768) :
    val_main_v16 (F := Ideal) x0 x3 (ix2 e o)
      = val_main_v10 (F := Ideal) x0 x3 (ix3 e ⟨1, by decide⟩ ⟨768 + o.val, by have := o.isLt; omega⟩) := by
  have ho := o.isLt; have he := e.isLt
  rw [val_main_v16_apply, val_main_v15_apply, val_main_v12_apply]
  refine congrArg (val_main_v10 (F := Ideal) x0 x3) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the imaginary half's first 768 outputs. -/
theorem ir1_at (x0 : (⟨S50000x29x128, .f32⟩ : BufTy).Contents (Elt Ideal)) (x3 : (⟨S1536x768, .f32⟩ : BufTy).Contents (Elt Ideal)) (e : Fin 50000) (o : Fin 768) :
    val_main_v19 (F := Ideal) x0 x3 (ix2 e o)
      = val_main_v10 (F := Ideal) x0 x3 (ix3 e ⟨1, by decide⟩ ⟨o.val, by have := o.isLt; omega⟩) := by
  have ho := o.isLt; have he := e.isLt
  rw [val_main_v19_apply, val_main_v18_apply, val_main_v11_apply]
  refine congrArg (val_main_v10 (F := Ideal) x0 x3) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the real half's last 768 outputs. -/
theorem ri1_at (x0 : (⟨S50000x29x128, .f32⟩ : BufTy).Contents (Elt Ideal)) (x3 : (⟨S1536x768, .f32⟩ : BufTy).Contents (Elt Ideal)) (e : Fin 50000) (o : Fin 768) :
    val_main_v21 (F := Ideal) x0 x3 (ix2 e o)
      = val_main_v10 (F := Ideal) x0 x3 (ix3 e ⟨0, by decide⟩ ⟨768 + o.val, by have := o.isLt; omega⟩) := by
  have ho := o.isLt; have he := e.isLt
  rw [val_main_v21_apply, val_main_v20_apply, val_main_v12_apply]
  refine congrArg (val_main_v10 (F := Ideal) x0 x3) ?_
  funext a
  match a with
  | ⟨0, _⟩ => exact Fin.ext (by idx_open <;> omega)
  | ⟨1, _⟩ => exact Fin.ext (by idx_open <;> omega)
  | ⟨2, _⟩ => exact Fin.ext (by idx_open <;> omega)

/-- A component-and-channel index of a 6 × 128 piece is column `l * 128 + ch` of its 768-wide row. -/
theorem fold1_idx (e : Fin 50000) (l : Fin 6) (ch : Fin 128) :
    idx_main_v23 (ix3 e l ch) = ix2 e (⟨l.val * 128 + ch.val, by have := l.isLt; have := ch.isLt; omega⟩ : Fin 768) := by
  have hl := l.isLt; have hc := ch.isLt; have he := e.isLt
  funext a
  match a with
  | ⟨0, _⟩ => exact Fin.ext (by idx_open <;> omega)
  | ⟨1, _⟩ => exact Fin.ext (by idx_open <;> omega)

/-- The "plus" piece of order 1: real·real − imaginary·imaginary. -/
theorem pos1_at (x0 : (⟨S50000x29x128, .f32⟩ : BufTy).Contents (Elt Ideal)) (x3 : (⟨S1536x768, .f32⟩ : BufTy).Contents (Elt Ideal)) (e : Fin 50000) (l : Fin 6) (ch : Fin 128) :
    val_main_v23 (F := Ideal) x0 x3 (ix3 e l ch)
      = pos1 (flat x0 e) (fun k o => x3 (ix2 o k)) ⟨l.val * 128 + ch.val, by have := l.isLt; have := ch.isLt; omega⟩ := by
  rw [val_main_v23_apply, fold1_idx, val_main_v17_apply, Ideal.subf_def, rr1_at, ii1_at]
  unfold pos1
  rw [dot1_at x0 x3 e ⟨0, by decide⟩ 896 _ rfl, dot1_at x0 x3 e ⟨1, by decide⟩ 1664 _ rfl]

/-- The "minus" piece of order 1: imaginary·real + real·imaginary. -/
theorem neg1_at (x0 : (⟨S50000x29x128, .f32⟩ : BufTy).Contents (Elt Ideal)) (x3 : (⟨S1536x768, .f32⟩ : BufTy).Contents (Elt Ideal)) (e : Fin 50000) (l : Fin 6) (ch : Fin 128) :
    val_main_v24 (F := Ideal) x0 x3 (ix3 e l ch)
      = neg1 (flat x0 e) (fun k o => x3 (ix2 o k)) ⟨l.val * 128 + ch.val, by have := l.isLt; have := ch.isLt; omega⟩ := by
  rw [val_main_v24_apply, show idx_main_v24 (ix3 e l ch) = idx_main_v23 (ix3 e l ch) from rfl, fold1_idx,
    val_main_v22_apply, Ideal.addf_def, ir1_at, ri1_at]
  unfold neg1
  rw [dot1_at x0 x3 e ⟨1, by decide⟩ 1664 _ rfl, dot1_at x0 x3 e ⟨0, by decide⟩ 896 _ rfl]

/-! ## Order m = 2: 5 + 5 components, 640 numbers per half, weights 1280 × 640 -/

/-- The product of half `t` (0 real, 1 imaginary) of the order-2 stretch with row `c` of the weights: the contraction runs
    over the 640 numbers of the half, number `k` being component `19 + 5 t + k / 128`, channel `k % 128` of the edge, which is
    column `2432 + 640 t + k` of the edge's row. -/
theorem dot2_at (x0 : (⟨S50000x29x128, .f32⟩ : BufTy).Contents (Elt Ideal)) (x4 : (⟨S1280x640, .f32⟩ : BufTy).Contents (Elt Ideal)) (e : Fin 50000) (t : Fin 2) (base : Nat) (hb : base + 640 ≤ 3712)
    (hbase : base = 2432 + t.val * 640) (c : Fin 1280) :
    dotAt (flat x0 e) base 640 1280 hb (fun k o => x4 (ix2 o k)) c = val_main_v27 (F := Ideal) x0 x4 (ix3 e t c) := by
  have ht := t.isLt
  rw [val_main_v27_apply]
  unfold dotAt flat
  refine Finset.sum_congr rfl fun k _ => ?_
  have hk := k.isLt
  rw [val_main_v26_apply, val_main_v25_apply]
  refine congrArg₂ (· * ·) (congrArg x0 ?_) (congrArg x4 ?_)
  · funext a
    match a with
    | ⟨0, _⟩ => exact Fin.ext (by idx_open <;> omega)
    | ⟨1, _⟩ => exact Fin.ext (by idx_open <;> omega)
    | ⟨2, _⟩ => exact Fin.ext (by idx_open <;> omega)
  · funext a
    match a with
    | ⟨0, _⟩ => rfl
    | ⟨1, _⟩ => rfl

/-- Column `o` of the real half's first 640 outputs. -/
theorem rr2_at (x0 : (⟨S50000x29x128, .f32⟩ : BufTy).Contents (Elt Ideal)) (x4 : (⟨S1280x640, .f32⟩ : BufTy).Contents (Elt Ideal)) (e : Fin 50000) (o : Fin 640) :
    val_main_v31 (F := Ideal) x0 x4 (ix2 e o)
      = val_main_v27 (F := Ideal) x0 x4 (ix3 e ⟨0, by decide⟩ ⟨o.val, by have := o.isLt; omega⟩) := by
  have ho := o.isLt; have he := e.isLt
  rw [val_main_v31_apply, val_main_v30_apply, val_main_v28_apply]
  refine congrArg (val_main_v27 (F := Ideal) x0 x4) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the imaginary half's last 640 outputs. -/
theorem ii2_at (x0 : (⟨S50000x29x128, .f32⟩ : BufTy).Contents (Elt Ideal)) (x4 : (⟨S1280x640, .f32⟩ : BufTy).Contents (Elt Ideal)) (e : Fin 50000) (o : Fin 640) :
    val_main_v33 (F := Ideal) x0 x4 (ix2 e o)
      = val_main_v27 (F := Ideal) x0 x4 (ix3 e ⟨1, by decide⟩ ⟨640 + o.val, by have := o.isLt; omega⟩) := by
  have ho := o.isLt; have he := e.isLt
  rw [val_main_v33_apply, val_main_v32_apply, val_main_v29_apply]
  refine congrArg (val_main_v27 (F := Ideal) x0 x4) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the imaginary half's first 640 outputs. -/
theorem ir2_at (x0 : (⟨S50000x29x128, .f32⟩ : BufTy).Contents (Elt Ideal)) (x4 : (⟨S1280x640, .f32⟩ : BufTy).Contents (Elt Ideal)) (e : Fin 50000) (o : Fin 640) :
    val_main_v36 (F := Ideal) x0 x4 (ix2 e o)
      = val_main_v27 (F := Ideal) x0 x4 (ix3 e ⟨1, by decide⟩ ⟨o.val, by have := o.isLt; omega⟩) := by
  have ho := o.isLt; have he := e.isLt
  rw [val_main_v36_apply, val_main_v35_apply, val_main_v28_apply]
  refine congrArg (val_main_v27 (F := Ideal) x0 x4) ?_
  funext a
  match a with
  | ⟨0, _⟩ => exact Fin.ext (by idx_open <;> omega)
  | ⟨1, _⟩ => exact Fin.ext (by idx_open <;> omega)
  | ⟨2, _⟩ => exact Fin.ext (by idx_open <;> omega)

/-- Column `o` of the real half's last 640 outputs. -/
theorem ri2_at (x0 : (⟨S50000x29x128, .f32⟩ : BufTy).Contents (Elt Ideal)) (x4 : (⟨S1280x640, .f32⟩ : BufTy).Contents (Elt Ideal)) (e : Fin 50000) (o : Fin 640) :
    val_main_v38 (F := Ideal) x0 x4 (ix2 e o)
      = val_main_v27 (F := Ideal) x0 x4 (ix3 e ⟨0, by decide⟩ ⟨640 + o.val, by have := o.isLt; omega⟩) := by
  have ho := o.isLt; have he := e.isLt
  rw [val_main_v38_apply, val_main_v37_apply, val_main_v29_apply]
  refine congrArg (val_main_v27 (F := Ideal) x0 x4) ?_
  funext a
  match a with
  | ⟨0, _⟩ => exact Fin.ext (by idx_open <;> omega)
  | ⟨1, _⟩ => exact Fin.ext (by idx_open <;> omega)
  | ⟨2, _⟩ => exact Fin.ext (by idx_open <;> omega)

/-- A component-and-channel index of a 5 × 128 piece is column `l * 128 + ch` of its 640-wide row. -/
theorem fold2_idx (e : Fin 50000) (l : Fin 5) (ch : Fin 128) :
    idx_main_v40 (ix3 e l ch) = ix2 e (⟨l.val * 128 + ch.val, by have := l.isLt; have := ch.isLt; omega⟩ : Fin 640) := by
  have hl := l.isLt; have hc := ch.isLt; have he := e.isLt
  funext a
  match a with
  | ⟨0, _⟩ => exact Fin.ext (by idx_open <;> omega)
  | ⟨1, _⟩ => exact Fin.ext (by idx_open <;> omega)

/-- The "plus" piece of order 2: real·real − imaginary·imaginary. -/
theorem pos2_at (x0 : (⟨S50000x29x128, .f32⟩ : BufTy).Contents (Elt Ideal)) (x4 : (⟨S1280x640, .f32⟩ : BufTy).Contents (Elt Ideal)) (e : Fin 50000) (l : Fin 5) (ch : Fin 128) :
    val_main_v40 (F := Ideal) x0 x4 (ix3 e l ch)
      = pos2 (flat x0 e) (fun k o => x4 (ix2 o k)) ⟨l.val * 128 + ch.val, by have := l.isLt; have := ch.isLt; omega⟩ := by
  rw [val_main_v40_apply, fold2_idx, val_main_v34_apply, Ideal.subf_def, rr2_at, ii2_at]
  unfold pos2
  rw [dot2_at x0 x4 e ⟨0, by decide⟩ 2432 _ rfl, dot2_at x0 x4 e ⟨1, by decide⟩ 3072 _ rfl]

/-- The "minus" piece of order 2: imaginary·real + real·imaginary. -/
theorem neg2_at (x0 : (⟨S50000x29x128, .f32⟩ : BufTy).Contents (Elt Ideal)) (x4 : (⟨S1280x640, .f32⟩ : BufTy).Contents (Elt Ideal)) (e : Fin 50000) (l : Fin 5) (ch : Fin 128) :
    val_main_v41 (F := Ideal) x0 x4 (ix3 e l ch)
      = neg2 (flat x0 e) (fun k o => x4 (ix2 o k)) ⟨l.val * 128 + ch.val, by have := l.isLt; have := ch.isLt; omega⟩ := by
  rw [val_main_v41_apply, show idx_main_v41 (ix3 e l ch) = idx_main_v40 (ix3 e l ch) from rfl, fold2_idx,
    val_main_v39_apply, Ideal.addf_def, ir2_at, ri2_at]
  unfold neg2
  rw [dot2_at x0 x4 e ⟨1, by decide⟩ 3072 _ rfl, dot2_at x0 x4 e ⟨0, by decide⟩ 2432 _ rfl]

/-! ## The five pieces side by side -/

theorem rowOut_m0_at (xr w0 b w1 w2) (q : Fin 3712) (o : Fin 896) (h : q.val = o.val) :
    rowOut xr w0 b w1 w2 q = m0 xr w0 b o := by
  have hq : q = ⟨o.val, by have := o.isLt; omega⟩ := Fin.ext h
  rw [hq, rowOut_m0]
theorem rowOut_pos1_at (xr w0 b w1 w2) (q : Fin 3712) (o : Fin 768) (h : q.val = 896 + o.val) :
    rowOut xr w0 b w1 w2 q = pos1 xr w1 o := by
  have hq : q = ⟨896 + o.val, by have := o.isLt; omega⟩ := Fin.ext h
  rw [hq, rowOut_pos1]
theorem rowOut_neg1_at (xr w0 b w1 w2) (q : Fin 3712) (o : Fin 768) (h : q.val = 1664 + o.val) :
    rowOut xr w0 b w1 w2 q = neg1 xr w1 o := by
  have hq : q = ⟨1664 + o.val, by have := o.isLt; omega⟩ := Fin.ext h
  rw [hq, rowOut_neg1]
theorem rowOut_pos2_at (xr w0 b w1 w2) (q : Fin 3712) (o : Fin 640) (h : q.val = 2432 + o.val) :
    rowOut xr w0 b w1 w2 q = pos2 xr w2 o := by
  have hq : q = ⟨2432 + o.val, by have := o.isLt; omega⟩ := Fin.ext h
  rw [hq, rowOut_pos2]
theorem rowOut_neg2_at (xr w0 b w1 w2) (q : Fin 3712) (o : Fin 640) (h : q.val = 3072 + o.val) :
    rowOut xr w0 b w1 w2 q = neg2 xr w2 o := by
  have hq : q = ⟨3072 + o.val, by have := o.isLt; omega⟩ := Fin.ext h
  rw [hq, rowOut_neg2]

/-- The specification at edge `e`, component `l`, channel `ch`: column `l * 128 + ch` of the edge's result row. -/
theorem G_at (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) :
    G x0 x1 x2 x3 x4 (ix3 e l ch)
      = rowOut (flat x0 e) (fun k o => x1 (ix2 o k)) (fun o => x2 (ix1 o)) (fun k o => x3 (ix2 o k)) (fun k o => x4 (ix2 o k))
          ⟨l.val * 128 + ch.val, by have := l.isLt; have := ch.isLt; omega⟩ := rfl

/-- Components 0 to 6: piece 0 of the five. -/
theorem ref_at_m0 (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) (h2 : l.val < 7) :
    val_main_v42 (F := Ideal) x0 x1 x2 x3 x4 (ix3 e l ch) = G x0 x1 x2 x3 x4 (ix3 e l ch) := by
  have hc := ch.isLt
  rw [G_at, rowOut_m0_at _ _ _ _ _ _ ⟨l.val * 128 + ch.val, by omega⟩ (by show l.val * 128 + ch.val = l.val * 128 + ch.val; rfl)]
  unfold val_main_v42
  refine (concatenate_apply_piece _ _ _ _ 0 ?_ S50000x7x128 (val_main_v7 (F := Ideal) x0 x1 x2) ?_ ?_ 0 ?_
    (ix3 e ⟨l.val, by omega⟩ ch) ?_ ?_).trans (m0_at x0 x1 x2 e ⟨l.val, by omega⟩ ch)
  · show (0 : Nat) < 5; decide
  · rfl
  · rfl
  · rfl
  · intro b hb
    match b, hb with
    | ⟨0, _⟩, _ => rfl
    | ⟨1, _⟩, hb => exact absurd rfl hb
    | ⟨2, _⟩, _ => rfl
  · show 0 + (l.val) = l.val; omega

/-- Components 7 to 12: piece 1 of the five. -/
theorem ref_at_pos1 (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) (h1 : 7 ≤ l.val) (h2 : l.val < 13) :
    val_main_v42 (F := Ideal) x0 x1 x2 x3 x4 (ix3 e l ch) = G x0 x1 x2 x3 x4 (ix3 e l ch) := by
  have hc := ch.isLt
  rw [G_at, rowOut_pos1_at _ _ _ _ _ _ ⟨(l.val - 7) * 128 + ch.val, by omega⟩ (by show l.val * 128 + ch.val = 896 + ((l.val - 7) * 128 + ch.val); omega)]
  unfold val_main_v42
  refine (concatenate_apply_piece _ _ _ _ 1 ?_ S50000x6x128 (val_main_v23 (F := Ideal) x0 x3) ?_ ?_ 7 ?_
    (ix3 e ⟨l.val - 7, by omega⟩ ch) ?_ ?_).trans (pos1_at x0 x3 e ⟨l.val - 7, by omega⟩ ch)
  · show (1 : Nat) < 5; decide
  · rfl
  · rfl
  · rfl
  · intro b hb
    match b, hb with
    | ⟨0, _⟩, _ => rfl
    | ⟨1, _⟩, hb => exact absurd rfl hb
    | ⟨2, _⟩, _ => rfl
  · show 7 + (l.val - 7) = l.val; omega

/-- Components 13 to 18: piece 2 of the five. -/
theorem ref_at_neg1 (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) (h1 : 13 ≤ l.val) (h2 : l.val < 19) :
    val_main_v42 (F := Ideal) x0 x1 x2 x3 x4 (ix3 e l ch) = G x0 x1 x2 x3 x4 (ix3 e l ch) := by
  have hc := ch.isLt
  rw [G_at, rowOut_neg1_at _ _ _ _ _ _ ⟨(l.val - 13) * 128 + ch.val, by omega⟩ (by show l.val * 128 + ch.val = 1664 + ((l.val - 13) * 128 + ch.val); omega)]
  unfold val_main_v42
  refine (concatenate_apply_piece _ _ _ _ 2 ?_ S50000x6x128 (val_main_v24 (F := Ideal) x0 x3) ?_ ?_ 13 ?_
    (ix3 e ⟨l.val - 13, by omega⟩ ch) ?_ ?_).trans (neg1_at x0 x3 e ⟨l.val - 13, by omega⟩ ch)
  · show (2 : Nat) < 5; decide
  · rfl
  · rfl
  · rfl
  · intro b hb
    match b, hb with
    | ⟨0, _⟩, _ => rfl
    | ⟨1, _⟩, hb => exact absurd rfl hb
    | ⟨2, _⟩, _ => rfl
  · show 13 + (l.val - 13) = l.val; omega

/-- Components 19 to 23: piece 3 of the five. -/
theorem ref_at_pos2 (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) (h1 : 19 ≤ l.val) (h2 : l.val < 24) :
    val_main_v42 (F := Ideal) x0 x1 x2 x3 x4 (ix3 e l ch) = G x0 x1 x2 x3 x4 (ix3 e l ch) := by
  have hc := ch.isLt
  rw [G_at, rowOut_pos2_at _ _ _ _ _ _ ⟨(l.val - 19) * 128 + ch.val, by omega⟩ (by show l.val * 128 + ch.val = 2432 + ((l.val - 19) * 128 + ch.val); omega)]
  unfold val_main_v42
  refine (concatenate_apply_piece _ _ _ _ 3 ?_ S50000x5x128 (val_main_v40 (F := Ideal) x0 x4) ?_ ?_ 19 ?_
    (ix3 e ⟨l.val - 19, by omega⟩ ch) ?_ ?_).trans (pos2_at x0 x4 e ⟨l.val - 19, by omega⟩ ch)
  · show (3 : Nat) < 5; decide
  · rfl
  · rfl
  · rfl
  · intro b hb
    match b, hb with
    | ⟨0, _⟩, _ => rfl
    | ⟨1, _⟩, hb => exact absurd rfl hb
    | ⟨2, _⟩, _ => rfl
  · show 19 + (l.val - 19) = l.val; omega

/-- Components 24 to 28: piece 4 of the five. -/
theorem ref_at_neg2 (x0 : (⟨S50000x29x128, .f32⟩ : BufTy).Contents (Elt Ideal)) (x1 : (⟨S896x896, .f32⟩ : BufTy).Contents (Elt Ideal))
    (x2 : (⟨S896, .f32⟩ : BufTy).Contents (Elt Ideal)) (x3 : (⟨S1536x768, .f32⟩ : BufTy).Contents (Elt Ideal))
    (x4 : (⟨S1280x640, .f32⟩ : BufTy).Contents (Elt Ideal)) (e : Fin 50000) (l : Fin 29) (ch : Fin 128) (h1 : 24 ≤ l.val) (h2 : l.val < 29) :
    val_main_v42 (F := Ideal) x0 x1 x2 x3 x4 (ix3 e l ch) = G x0 x1 x2 x3 x4 (ix3 e l ch) := by
  have hc := ch.isLt
  rw [G_at, rowOut_neg2_at _ _ _ _ _ _ ⟨(l.val - 24) * 128 + ch.val, by omega⟩ (by show l.val * 128 + ch.val = 3072 + ((l.val - 24) * 128 + ch.val); omega)]
  unfold val_main_v42
  refine (concatenate_apply_piece _ _ _ _ 4 ?_ S50000x5x128 (val_main_v41 (F := Ideal) x0 x4) ?_ ?_ 24 ?_
    (ix3 e ⟨l.val - 24, by omega⟩ ch) ?_ ?_).trans (neg2_at x0 x4 e ⟨l.val - 24, by omega⟩ ch)
  · show (4 : Nat) < 5; decide
  · rfl
  · rfl
  · rfl
  · intro b hb
    match b, hb with
    | ⟨0, _⟩, _ => rfl
    | ⟨1, _⟩, hb => exact absurd rfl hb
    | ⟨2, _⟩, _ => rfl
  · show 24 + (l.val - 24) = l.val; omega

/-- The reference program's result is the specification, index by index. -/
theorem ref_eq_G (x0 : (⟨S50000x29x128, .f32⟩ : BufTy).Contents (Elt Ideal)) (x1 : (⟨S896x896, .f32⟩ : BufTy).Contents (Elt Ideal)) (x2 : (⟨S896, .f32⟩ : BufTy).Contents (Elt Ideal)) (x3 : (⟨S1536x768, .f32⟩ : BufTy).Contents (Elt Ideal)) (x4 : (⟨S1280x640, .f32⟩ : BufTy).Contents (Elt Ideal)) :
    Cert.ReferenceIdeal.Read.val_main_v42 (F := Ideal) x0 x1 x2 x3 x4 = Cert.Spec.G x0 x1 x2 x3 x4 := by
  funext i
  obtain ⟨e, l, ch, rfl⟩ : ∃ (e : Fin 50000) (l : Fin 29) (ch : Fin 128), i = ix3 e l ch := ⟨i 0, i 1, i 2, eq_ix3 i⟩
  have hl := l.isLt
  by_cases h0 : l.val < 7
  · exact ref_at_m0 x0 x1 x2 x3 x4 e l ch h0
  by_cases h1 : l.val < 13
  · exact ref_at_pos1 x0 x1 x2 x3 x4 e l ch (by omega) h1
  by_cases h2 : l.val < 19
  · exact ref_at_neg1 x0 x1 x2 x3 x4 e l ch (by omega) h2
  by_cases h3 : l.val < 24
  · exact ref_at_pos2 x0 x1 x2 x3 x4 e l ch (by omega) h3
  · exact ref_at_neg2 x0 x1 x2 x3 x4 e l ch (by omega) (by omega)

end Cert.ReferenceIdeal.RefValue

end
-- ==== Proof.lean ====
/-
  The certificate's claim.

  The kernel applies, edge by edge, three dense layers to the 29 × 128 components of 50000 edges: one layer with bias on
  the 7 components of order m = 0, and for each of the orders m = 1 (6 + 6 components) and m = 2 (5 + 5 components) one
  weight matrix applied to the real and to the imaginary half, whose two halves of output columns are recombined as
  real·real − imaginary·imaginary and imaginary·real + real·imaginary. The kernel works on the features flattened to rows
  of 3712, 512 rows per grid point (the last point's block overhangs the array and its transfers are cut to the 336 rows
  inside), with the weights transposed and whole; the reference slices, reshapes, contracts and concatenates on the host.
  On the extended reals both compute `Cert.Spec.G`: the same finite sums of products, the same sums and differences, in the
  same order — only the layouts differ, and a change of float format is the identity. No property of the inputs is used.

  The five conjuncts: the word-level program's frame (its body run with the output window's contents left unnamed), the
  idealized program's frame and the reference's (their runs, the result dropped), the idealization's ledger (empty), and
  the two idealized programs' equal results (each is `G` of arguments that agree).
-/
import proofs.«134654_j42305427866205_2_alg».proof.Defs
import proofs.«134654_j42305427866205_2_alg».proof.Proof.Gen.Kernel
import proofs.«134654_j42305427866205_2_alg».proof.Proof.Gen.Kernel.Skeleton
import proofs.«134654_j42305427866205_2_alg».proof.Proof.Gen.Kernel.Launch
import proofs.«134654_j42305427866205_2_alg».proof.Proof.Gen.Kernel.Points
import proofs.«134654_j42305427866205_2_alg».proof.Proof.Gen.Kernel.Frame
import proofs.«134654_j42305427866205_2_alg».proof.Proof.Gen.KernelIdeal
import proofs.«134654_j42305427866205_2_alg».proof.Proof.Gen.KernelIdeal.Skeleton
import proofs.«134654_j42305427866205_2_alg».proof.Proof.Gen.KernelIdeal.Launch
import proofs.«134654_j42305427866205_2_alg».proof.Proof.Gen.KernelIdeal.Points
import proofs.«134654_j42305427866205_2_alg».proof.Proof.Gen.KernelIdeal.Frame
import proofs.«134654_j42305427866205_2_alg».proof.Proof.Gen.ReferenceIdeal
import proofs.«134654_j42305427866205_2_alg».proof.Proof.Gen.ReferenceIdeal.Run
import proofs.«134654_j42305427866205_2_alg».proof.Proof.Gen.ReferenceIdeal.Read
import proofs.«134654_j42305427866205_2_alg».proof.Proof.Gen.Pre_finite_inputs
import proofs.«134654_j42305427866205_2_alg».proof.Proof.WordFrame
import proofs.«134654_j42305427866205_2_alg».proof.Proof.IdealResult
import proofs.«134654_j42305427866205_2_alg».proof.Proof.RefIsSpec
import Idealize.ShloMosaic.Adequacy
import Idealize.ShloMosaic.Init

noncomputable section

namespace Cert.Proof

open Idealize.ShloMosaic Idealize.SL.Sem

/-- The word-level program runs and leaves its arguments as they were. -/
theorem frame_word : Cert.frame_Kernel := fun m ρ _ => Cert.Kernel.Hand.frame (F := Bits) m ρ

/-- So does the idealized program, -/
theorem frame_ideal : Cert.frame_KernelIdeal := fun m ρ _ => Cert.KernelIdeal.Hand.frame m ρ

/-- and the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at `G` of their arguments, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v42_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
